-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x8192 : Shape := ⟨3, ![32, 256, 8192]⟩
abbrev S32x2048x1 : Shape := ⟨3, ![32, 2048, 1]⟩
abbrev S_ : Shape := ⟨0, ![]⟩

class Facts : Prop where
  bcast_S_S32x256x8192 : S_.BroadcastsInDim S32x256x8192 (![] : Fin 0 → Fin S32x256x8192.rank)
  reducesTo_S32x256x8192_S_d0_1_2 : S32x256x8192.ReducesTo [0, 1, 2] S_
  h_S_ : 0 < S_.numel
  bcast_S_S32x2048x1 : S_.BroadcastsInDim S32x2048x1 (![] : Fin 0 → Fin S32x2048x1.rank)
  reducesTo_S32x2048x1_S_d0_1_2 : S32x2048x1.ReducesTo [0, 1, 2] S_

variable [Facts]

def fn {F : FTy → Type} [FloatOps F] (main_arg0 : FVec F S32x256x8192 .f32) (main_arg1 : FVec F S32x2048x1 .f32) (main_arg2 : FVec F S32x2048x1 .f32) : IVec S_ 1 :=
  let main_v0 : FVec F S32x256x8192 .f32 := Host.absf main_arg0
  let main_cst : FVec F S_ .f32 := constant S_ .f32 0x7F800000#32
  let main_v1 : FVec F S32x256x8192 .f32 := broadcastInDim S32x256x8192 ![] bcast_S_S32x256x8192 main_cst
  let main_v2 : IVec S32x256x8192 1 := cmpf .olt main_v0 main_v1
  let main_c : IVec S_ 1 := constantI S_ 1 1#1
  let main_v3 : IVec S_ 1 := (fun x v => Host.reduce IntOp.andi x v reducesTo_S32x256x8192_S_d0_1_2 h_S_) main_v2 main_c
  let main_v4 : FVec F S32x2048x1 .f32 := Host.absf main_arg1
  let main_cst_0 : FVec F S_ .f32 := constant S_ .f32 0x7F800000#32
  let main_v5 : FVec F S32x2048x1 .f32 := broadcastInDim S32x2048x1 ![] bcast_S_S32x2048x1 main_cst_0
  let main_v6 : IVec S32x2048x1 1 := cmpf .olt main_v4 main_v5
  let main_c_1 : IVec S_ 1 := constantI S_ 1 1#1
  let main_v7 : IVec S_ 1 := (fun x v => Host.reduce IntOp.andi x v reducesTo_S32x2048x1_S_d0_1_2 h_S_) main_v6 main_c_1
  let main_v8 : IVec S_ 1 := andi main_v3 main_v7
  let main_v9 : FVec F S32x2048x1 .f32 := Host.absf main_arg2
  let main_cst_2 : FVec F S_ .f32 := constant S_ .f32 0x7F800000#32
  let main_v10 : FVec F S32x2048x1 .f32 := broadcastInDim S32x2048x1 ![] bcast_S_S32x2048x1 main_cst_2
  let main_v11 : IVec S32x2048x1 1 := cmpf .olt main_v9 main_v10
  let main_c_3 : IVec S_ 1 := constantI S_ 1 1#1
  let main_v12 : IVec S_ 1 := (fun x v => Host.reduce IntOp.andi x v reducesTo_S32x2048x1_S_d0_1_2 h_S_) main_v11 main_c_3
  let main_v13 : IVec S_ 1 := andi main_v8 main_v12
  main_v13
-- ==== Kernel.lean ====
abbrev S32x256x8192 : Shape := ⟨3, ![32, 256, 8192]⟩
abbrev S32x2048x1 : Shape := ⟨3, ![32, 2048, 1]⟩
abbrev S32x2048 : Shape := ⟨2, ![32, 2048]⟩
abbrev S_ : Shape := ⟨0, ![]⟩
abbrev S32x2048x256 : Shape := ⟨3, ![32, 2048, 256]⟩
abbrev S1x256x2048 : Shape := ⟨3, ![1, 256, 2048]⟩
abbrev S1x2048x1 : Shape := ⟨3, ![1, 2048, 1]⟩
abbrev S1x2048x256 : Shape := ⟨3, ![1, 2048, 256]⟩
abbrev S2048x256 : Shape := ⟨2, ![2048, 256]⟩
abbrev S256x2048 : Shape := ⟨2, ![256, 2048]⟩
abbrev S1x2048 : Shape := ⟨2, ![1, 2048]⟩
abbrev S1x512x1 : Shape := ⟨3, ![1, 512, 1]⟩
abbrev S512x1 : Shape := ⟨2, ![512, 1]⟩
abbrev S512x2048 : Shape := ⟨2, ![512, 2048]⟩
abbrev S512x256 : Shape := ⟨2, ![512, 256]⟩

abbrev nBuf : Space → Nat
  | .hbm => 19
  | .vmem => 7
  | .smem => 0
  | _ => 0

abbrev bufTy : (tb : Table) → Fin (tcTables nBuf tb) → BufTy
  | .hbm, ⟨0, _⟩ => ⟨S32x256x8192, .f32⟩
  | .hbm, ⟨1, _⟩ => ⟨S32x2048x1, .f32⟩
  | .hbm, ⟨2, _⟩ => ⟨S32x2048x1, .f32⟩
  | .hbm, ⟨3, _⟩ => ⟨S32x2048, .f32⟩
  | .hbm, ⟨4, _⟩ => ⟨S32x2048, .f32⟩
  | .hbm, ⟨5, _⟩ => ⟨S_, .f32⟩
  | .hbm, ⟨6, _⟩ => ⟨S32x2048, .f32⟩
  | .hbm, ⟨7, _⟩ => ⟨S32x2048, .f32⟩
  | .hbm, ⟨8, _⟩ => ⟨S32x2048, .f32⟩
  | .hbm, ⟨9, _⟩ => ⟨S_, .f32⟩
  | .hbm, ⟨10, _⟩ => ⟨S_, .i32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048x1, .f32⟩
  | .hbm, ⟨18, _⟩ => ⟨S32x2048x256, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x256, .f32⟩
  | .local _ .vmem, ⟨5, _⟩ => ⟨S1x2048x256, .f32⟩
  | .local _ .vmem, ⟨6, _⟩ => ⟨S2048x256, .f32⟩
  | _, _ => ⟨S32x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32_3 : BitVec 32 := 0#32
  let c4_i32 : BitVec 32 := 4#32
  let v11 : BitVec 32 := Scalar.addi c0_i32_3 c4_i32
  let c1_i32 : BitVec 32 := 1#32
  ⟨c0_i32_3, v11, c1_i32⟩
def k0_mult1 (k0_t1 : Fin k0_t1_loop.trips) : BitVec 32 :=
  let c0_i32_7 : BitVec 32 := 0#32
  let c0_i32_3 : BitVec 32 := 0#32
  let c1_i32 : BitVec 32 := 1#32
  let arg6 : BitVec 32 := Scf.iv c0_i32_3 c1_i32 k0_t1
  let c1_i32_6 : BitVec 32 := 1#32
  let v15 : BitVec 32 := Scalar.muli arg6 c1_i32_6
  let v16 : BitVec 32 := Scalar.addi c0_i32_7 v15
  let c512_i32 : BitVec 32 := 512#32
  let v17 : BitVec 32 := Scalar.muli v16 c512_i32
  v17
def k0_off1 (k0_t1 : Fin k0_t1_loop.trips) : Fin 3 → Nat :=
  let c0_8 : Index := 0#32
  let c0_i32_7 : BitVec 32 := 0#32
  let c0_i32_3 : BitVec 32 := 0#32
  let c1_i32 : BitVec 32 := 1#32
  let arg6 : BitVec 32 := Scf.iv c0_i32_3 c1_i32 k0_t1
  let c1_i32_6 : BitVec 32 := 1#32
  let v15 : BitVec 32 := Scalar.muli arg6 c1_i32_6
  let v16 : BitVec 32 := Scalar.addi c0_i32_7 v15
  let c512_i32 : BitVec 32 := 512#32
  let v17 : BitVec 32 := Scalar.muli v16 c512_i32
  let v18 : BitVec 32 := v17
  let v19 : Index := Scalar.indexCast v18
  let c0_9 : Index := 0#32
  ![0, v19.toNat, 0]
def k0_off2 (k0_t1 : Fin k0_t1_loop.trips) : Fin 2 → Nat :=
  let c0_i32_7 : BitVec 32 := 0#32
  let c0_i32_3 : BitVec 32 := 0#32
  let c1_i32 : BitVec 32 := 1#32
  let arg6 : BitVec 32 := Scf.iv c0_i32_3 c1_i32 k0_t1
  let c1_i32_6 : BitVec 32 := 1#32
  let v15 : BitVec 32 := Scalar.muli arg6 c1_i32_6
  let v16 : BitVec 32 := Scalar.addi c0_i32_7 v15
  let c512_i32 : BitVec 32 := 512#32
  let v17 : BitVec 32 := Scalar.muli v16 c512_i32
  let v18 : BitVec 32 := v17
  let v32 : Index := Scalar.indexCast v18
  let c0_12 : Index := 0#32
  ![v32.toNat, 0]
def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x2048x1_S32x2048 : S32x2048x1.ShapeCasts S32x2048
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  iota_S1x2048_d1_w32 : S1x2048.Iotas .tc 32 [1]
  h_S1x512x1 : 0 < S1x512x1.numel
  shapeCasts_S1x512x1_S512x1 : S1x512x1.ShapeCasts S512x1
  broadcasts_S512x1_S512x2048 : S512x1.Broadcasts S512x2048
  broadcasts_S1x2048_S512x2048 : S1x2048.Broadcasts S512x2048
  h_S512x256 : 0 < S512x256.numel
  shapeCasts_S512x256_S512x256 : S512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S512x2048_S256x2048_S512x256_1_1_0_0_n_n_wf : DotDims.WF S512x2048 S256x2048 S512x256 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x1.size a ≤ S1x2048x1.size a
  k0_off2_inb : ∀ k0_t1 : Fin k0_t1_loop.trips, ∀ a, (k0_off2 k0_t1) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x256x8192.size a
  hwx0_0 : ∀ i : grid0.Coords, EltTy.bits .f32 = 32 ∨ (Rect.block (s := S32x256x8192) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S32x2048x1.size a
  hwx0_1 : ∀ i : grid0.Coords, EltTy.bits .f32 = 32 ∨ (Rect.block (s := S32x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S32x2048x256.size a
  hwx0_2 : ∀ i : grid0.Coords, EltTy.bits .f32 = 32 ∨ (Rect.block (s := S32x2048x256) S1x2048x256.size (cc0_transform_2 i) (hinb0_2 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x256x8192 : Shape := ⟨3, ![32, 256, 8192]⟩
abbrev S32x2048x1 : Shape := ⟨3, ![32, 2048, 1]⟩
abbrev S32x2048 : Shape := ⟨2, ![32, 2048]⟩
abbrev S_ : Shape := ⟨0, ![]⟩
abbrev S32x1x2048 : Shape := ⟨3, ![32, 1, 2048]⟩
abbrev S1 : Shape := ⟨1, ![1]⟩
abbrev S1x1x1 : Shape := ⟨3, ![1, 1, 1]⟩
abbrev S32x256x2048 : Shape := ⟨3, ![32, 256, 2048]⟩
abbrev S32x2048x256 : Shape := ⟨3, ![32, 2048, 256]⟩

abbrev nBuf : Space → Nat
  | .hbm => 98
  | .vmem => 0
  | .smem => 0
  | _ => 0

abbrev bufTy : (tb : Table) → Fin (tcTables nBuf tb) → BufTy
  | .hbm, ⟨0, _⟩ => ⟨S32x256x8192, .f32⟩
  | .hbm, ⟨1, _⟩ => ⟨S32x2048x1, .f32⟩
  | .hbm, ⟨2, _⟩ => ⟨S32x2048x1, .f32⟩
  | .hbm, ⟨3, _⟩ => ⟨S32x2048, .f32⟩
  | .hbm, ⟨4, _⟩ => ⟨S32x2048, .f32⟩
  | .hbm, ⟨5, _⟩ => ⟨S_, .f32⟩
  | .hbm, ⟨6, _⟩ => ⟨S32x2048, .f32⟩
  | .hbm, ⟨7, _⟩ => ⟨S32x2048, .f32⟩
  | .hbm, ⟨8, _⟩ => ⟨S32x2048, .f32⟩
  | .hbm, ⟨9, _⟩ => ⟨S_, .f32⟩
  | .hbm, ⟨10, _⟩ => ⟨S_, .i32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S32x2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S32x2048, .i32⟩
  | .hbm, ⟨23, _⟩ => ⟨S32x2048, .i32⟩
  | .hbm, ⟨24, _⟩ => ⟨S_, .i32⟩
  | .hbm, ⟨25, _⟩ => ⟨S32x2048, .i32⟩
  | .hbm, ⟨26, _⟩ => ⟨S32x2048, .i32⟩
  | .hbm, ⟨27, _⟩ => ⟨S32x2048, .f32⟩
  | .hbm, ⟨28, _⟩ => ⟨S32x2048, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S32x2048, .i32⟩
  | .hbm, ⟨33, _⟩ => ⟨S32x2048, .i32⟩
  | .hbm, ⟨34, _⟩ => ⟨S_, .i32⟩
  | .hbm, ⟨35, _⟩ => ⟨S32x2048, .i32⟩
  | .hbm, ⟨36, _⟩ => ⟨S32x2048, .i32⟩
  | .hbm, ⟨37, _⟩ => ⟨S32x2048, .f32⟩
  | .hbm, ⟨38, _⟩ => ⟨S32x2048, .f32⟩
  | .hbm, ⟨39, _⟩ => ⟨S_, .f32⟩
  | .hbm, ⟨40, _⟩ => ⟨S32x2048, .f32⟩
  | .hbm, ⟨41, _⟩ => ⟨S32x2048, .f32⟩
  | .hbm, ⟨42, _⟩ => ⟨S32x1x2048, .i32⟩
  | .hbm, ⟨43, _⟩ => ⟨S_, .i32⟩
  | .hbm, ⟨44, _⟩ => ⟨S32x1x2048, .i32⟩
  | .hbm, ⟨45, _⟩ => ⟨S32x1x2048, .i1⟩
  | .hbm, ⟨46, _⟩ => ⟨S_, .i32⟩
  | .hbm, ⟨47, _⟩ => ⟨S32x1x2048, .i32⟩
  | .hbm, ⟨48, _⟩ => ⟨S32x1x2048, .i32⟩
  | .hbm, ⟨49, _⟩ => ⟨S32x1x2048, .i32⟩
  | .hbm, ⟨50, _⟩ => ⟨S32x2048x1, .i32⟩
  | .hbm, ⟨51, _⟩ => ⟨S1, .i32⟩
  | .hbm, ⟨52, _⟩ => ⟨S_, .i32⟩
  | .hbm, ⟨53, _⟩ => ⟨S32x2048x1, .i32⟩
  | .hbm, ⟨54, _⟩ => ⟨S32x2048x1, .i1⟩
  | .hbm, ⟨55, _⟩ => ⟨S1x1x1, .i32⟩
  | .hbm, ⟨56, _⟩ => ⟨S32x2048x1, .i32⟩
  | .hbm, ⟨57, _⟩ => ⟨S32x2048x1, .i1⟩
  | .hbm, ⟨58, _⟩ => ⟨S32x2048x1, .i1⟩
  | .hbm, ⟨59, _⟩ => ⟨S_, .i1⟩
  | .hbm, ⟨60, _⟩ => ⟨S32x2048, .i1⟩
  | .hbm, ⟨61, _⟩ => ⟨S32x256x2048, .f32⟩
  | .hbm, ⟨62, _⟩ => ⟨S32x256x2048, .i1⟩
  | .hbm, ⟨63, _⟩ => ⟨S_, .f32⟩
  | .hbm, ⟨64, _⟩ => ⟨S32x256x2048, .f32⟩
  | .hbm, ⟨65, _⟩ => ⟨S32x256x2048, .f32⟩
  | .hbm, ⟨66, _⟩ => ⟨S32x1x2048, .i32⟩
  | .hbm, ⟨67, _⟩ => ⟨S_, .i32⟩
  | .hbm, ⟨68, _⟩ => ⟨S32x1x2048, .i32⟩
  | .hbm, ⟨69, _⟩ => ⟨S32x1x2048, .i1⟩
  | .hbm, ⟨70, _⟩ => ⟨S_, .i32⟩
  | .hbm, ⟨71, _⟩ => ⟨S32x1x2048, .i32⟩
  | .hbm, ⟨72, _⟩ => ⟨S32x1x2048, .i32⟩
  | .hbm, ⟨73, _⟩ => ⟨S32x1x2048, .i32⟩
  | .hbm, ⟨74, _⟩ => ⟨S32x2048x1, .i32⟩
  | .hbm, ⟨75, _⟩ => ⟨S1, .i32⟩
  | .hbm, ⟨76, _⟩ => ⟨S_, .i32⟩
  | .hbm, ⟨77, _⟩ => ⟨S32x2048x1, .i32⟩
  | .hbm, ⟨78, _⟩ => ⟨S32x2048x1, .i1⟩
  | .hbm, ⟨79, _⟩ => ⟨S1x1x1, .i32⟩
  | .hbm, ⟨80, _⟩ => ⟨S32x2048x1, .i32⟩
  | .hbm, ⟨81, _⟩ => ⟨S32x2048x1, .i1⟩
  | .hbm, ⟨82, _⟩ => ⟨S32x2048x1, .i1⟩
  | .hbm, ⟨83, _⟩ => ⟨S_, .i1⟩
  | .hbm, ⟨84, _⟩ => ⟨S32x2048, .i1⟩
  | .hbm, ⟨85, _⟩ => ⟨S32x256x2048, .f32⟩
  | .hbm, ⟨86, _⟩ => ⟨S32x256x2048, .i1⟩
  | .hbm, ⟨87, _⟩ => ⟨S_, .f32⟩
  | .hbm, ⟨88, _⟩ => ⟨S32x256x2048, .f32⟩
  | .hbm, ⟨89, _⟩ => ⟨S32x256x2048, .f32⟩
  | .hbm, ⟨90, _⟩ => ⟨S32x1x2048, .f32⟩
  | .hbm, ⟨91, _⟩ => ⟨S32x256x2048, .f32⟩
  | .hbm, ⟨92, _⟩ => ⟨S32x256x2048, .f32⟩
  | .hbm, ⟨93, _⟩ => ⟨S32x1x2048, .f32⟩
  | .hbm, ⟨94, _⟩ => ⟨S32x256x2048, .f32⟩
  | .hbm, ⟨95, _⟩ => ⟨S32x256x2048, .f32⟩
  | .hbm, ⟨96, _⟩ => ⟨S32x256x2048, .f32⟩
  | .hbm, ⟨97, _⟩ => ⟨S32x2048x256, .f32⟩
  | _, _ => ⟨S32x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_5 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_c_1 : Ref sig .tc := ⟨.hbm, 51, rfl⟩
abbrev main_call3_c_2 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_3 : Ref sig .tc := ⟨.hbm, 59, rfl⟩
abbrev main_call3_v12 : Ref sig .tc := ⟨.hbm, 60, rfl⟩
abbrev main_call3_v13 : Ref sig .tc := ⟨.hbm, 61, rfl⟩
abbrev main_call3_v14 : Ref sig .tc := ⟨.hbm, 62, rfl⟩
abbrev main_call3_cst : Ref sig .tc := ⟨.hbm, 63, rfl⟩
abbrev main_call3_v15 : Ref sig .tc := ⟨.hbm, 64, rfl⟩
abbrev main_v17 : Ref sig .tc := ⟨.hbm, 65, rfl⟩
abbrev main_v18 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_v14 : Ref sig .tc := ⟨.hbm, 86, rfl⟩
abbrev main_call4_cst : Ref sig .tc := ⟨.hbm, 87, rfl⟩
abbrev main_call4_v15 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩

abbrev nD : Nat := 1
abbrev τ : Topo := Topo.v7x

variable {F : FTy → Type} [FloatOps F]

class Facts₀ : Prop where
  shapeCasts_S32x2048x1_S32x2048 : S32x2048x1.ShapeCasts S32x2048
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  shapeCasts_S32x1x2048_S32x2048x1 : S32x1x2048.ShapeCasts S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x256x2048_0_2 : S32x2048.BroadcastsInDim S32x256x2048 (![0, 2] : Fin 2 → Fin S32x256x2048.rank)
  bcast_S_S32x256x2048 : S_.BroadcastsInDim S32x256x2048 (![] : Fin 0 → Fin S32x256x2048.rank)
  bcast_S32x1x2048_S32x256x2048_0_1_2 : S32x1x2048.BroadcastsInDim S32x256x2048 (![0, 1, 2] : Fin 3 → Fin S32x256x2048.rank)
  transposes_S32x256x2048_S32x2048x256_0_2_1 : S32x256x2048.Transposes [0, 2, 1] S32x2048x256
  gather_S32x256x8192_S32x2048x1_S32x256x2048_1_2_0_0_2_2_12561_wf : GatherDims.WF S32x256x8192 S32x2048x1 S32x256x2048 [1] [2] [0] [2] [0] 2 ![1, 256, 1]

variable [Facts₀]

def gather_S32x256x8192_S32x2048x1_S32x256x2048_1_2_0_0_2_2_12561 : GatherDims S32x256x8192 S32x2048x1 S32x256x2048 where
  offsetDims := [1]
  collapsedSliceDims := [2]
  operandBatchingDims := [0]
  startIndicesBatchingDims := [0]
  startIndexMap := [2]
  indexVectorDim := 2
  sliceSizes := ![1, 256, 1]
  wf := gather_S32x256x8192_S32x2048x1_S32x256x2048_1_2_0_0_2_2_12561_wf

class Facts : Prop extends Facts₀ where

variable [Facts]
-- ==== Proof.LoopPieces.lean ====
/-
  The in-kernel loop over the four chunks of 512 samples, read as one function of the accumulator's index.

  Trip k loads rows 512k … 512k+511 of the positions column and of the accumulator, and stores back into those same
  accumulator rows the body's arithmetic of the input tile, that positions chunk and that accumulator chunk. The four
  chunks are disjoint, so a trip finds in its rows what the accumulator held when the loop was entered, and after the
  loop the accumulator, at row y, holds trip ⌊y/512⌋'s result at local row y mod 512.
-/
import proofs.«147679_j50354196579100_2_alg».proof.Proof.Gen.KernelIdeal.Frame
import Idealize.ShloMosaic.Lib.Pipeline.Value
import Idealize.ShloMosaic.Lib.WholeRead
import Idealize.ShloMosaic.Lib.ValueIdx

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]

/-- The loop makes four trips. -/
theorem trips_eq : k0_t1_loop.trips = 4 := by decide

/-- The accumulator rows of trip `k`: 512 rows from row 512·k, all 256 columns. -/
abbrev accRect (k : Fin k0_t1_loop.trips) : Rect S2048x256 := Rect.unit (k0_off2 k) S512x256.size (k0_off2_inb k)
/-- The rows of the positions column that trip `k` reads: 512 rows from row 512·k. -/
abbrev locRect (k : Fin k0_t1_loop.trips) : Rect S1x2048x1 := Rect.unit (k0_off1 k) S1x512x1.size (k0_off1_inb k)

/-- An accumulator row of trip `k`'s chunk is row 512·k + (local row), same column. -/
theorem accRect_idx0 (k : Fin k0_t1_loop.trips) (x : (accRect k).shape.Idx) :
    ((accRect k).idx x 0 : ℕ) = 512 * k.val + (x 0).val := by
  rw [LoadRect.idx_apply]
  show k0_off2 k 0 + 1 * (x 0).val = _
  rw [k0_off2_eq k]; show 512 * k.val + 1 * (x 0).val = _; omega
theorem accRect_idx1 (k : Fin k0_t1_loop.trips) (x : (accRect k).shape.Idx) :
    ((accRect k).idx x 1 : ℕ) = (x 1).val := by
  rw [LoadRect.idx_apply]
  show k0_off2 k 1 + 1 * (x 1).val = _
  rw [k0_off2_eq k]; show 0 + 1 * (x 1).val = _; omega

/-- Which trip's chunk an accumulator row lies in. -/
def rowChunk (y : S2048x256.Idx) : Fin k0_t1_loop.trips :=
  ⟨(y 0).val / 512, by rw [trips_eq]; have h : (y 0).val < 2048 := (y 0).isLt; omega⟩
/-- The row's index inside its chunk. -/
def rowLocal (y : S2048x256.Idx) : S512x256.Idx :=
  ix2 ⟨(y 0).val % 512, Nat.mod_lt _ (by decide)⟩ ⟨(y 1).val, (y 1).isLt⟩

section Loop
variable (c : Dev nD) (i : grid0.Coords) (a2 : Memref sig .tc .vmem S1x256x2048 .f32) (h2 : a2.IsWhole)
  (a3 : Memref sig .tc .vmem S1x2048x1 .f32) (h3 : a3.IsWhole) (a4 : Memref sig .tc .vmem S1x2048x256 .f32) (h4 : a4.IsWhole)
  (a5 : Memref sig .tc .vmem S2048x256 .f32) (h5 : a5.IsWhole)
  (v3 : Vec F S1x256x2048 .f32) (X : BufTy.Contents (Elt F) a3.view.ty) (G : BufTy.Contents (Elt F) a5.view.ty)

/-- What trip `k` stores when it finds the accumulator at `f`: one piece, its chunk's rows, the body's arithmetic of the
    tile, the positions chunk and the accumulator chunk. -/
theorem tripL_eq (k : Fin k0_t1_loop.trips) (f : BufTy.Contents (Elt F) a5.view.ty) :
    tripL_k0_t1 (F := F) Variants.none c none i a2 h2 a3 h3 a4 h4 a5 h5 v3 X k f
      = [⟨accRect k, k0_pay2 i v3 (View.readAt (Elt F) a3.view (locRect k).toLoadRect X)
            (View.readAt (Elt F) a5.view (accRect k).toLoadRect f)⟩] := by
  unfold tripL_k0_t1 trip_k0_t1
  rfl

/-- Trip `k`'s piece computed from the contents at loop entry. -/
def piece (k : Fin k0_t1_loop.trips) : View.Piece (Elt F) S2048x256 .f32 :=
  ⟨accRect k, k0_pay2 i v3 (View.readAt (Elt F) a3.view (locRect k).toLoadRect X)
      (View.readAt (Elt F) a5.view (accRect k).toLoadRect G)⟩

/-- The pieces of the first `n` trips are the pieces computed from the contents at loop entry: a trip's rows are
    untouched by the earlier trips, whose chunks lie strictly above. -/
theorem pb_mem : ∀ (n : ℕ), n ≤ k0_t1_loop.trips →
    ∀ p ∈ pb_k0_t1 (F := F) Variants.none c none i a2 h2 a3 h3 a4 h4 a5 h5 v3 X G n,
      ∃ j : Fin k0_t1_loop.trips, j.val < n ∧ p = piece i a3 a5 v3 X G j
  | 0, _, p, hp => by rw [pb_k0_t1.eq_1] at hp; exact absurd hp List.not_mem_nil
  | n + 1, hn, p, hp => by
    have ih := pb_mem n (Nat.le_of_succ_le hn)
    have e := pb_k0_t1_succ (F := F) Variants.none c none i a2 h2 a3 h3 a4 h4 a5 h5 v3 X G ⟨n, hn⟩
    rw [show (⟨n, hn⟩ : Fin k0_t1_loop.trips).val + 1 = n + 1 from rfl, tripL_eq] at e
    rw [e] at hp
    rcases List.mem_append.mp hp with hp | hp
    · refine ⟨⟨n, hn⟩, Nat.lt_succ_self n, ?_⟩
      rw [List.mem_singleton.mp hp]
      unfold piece
      have hread : View.readAt (Elt F) a5.view (accRect ⟨n, hn⟩).toLoadRect
            (a5.view.writes (Elt F) G (pb_k0_t1 (F := F) Variants.none c none i a2 h2 a3 h3 a4 h4 a5 h5 v3 X G n))
          = View.readAt (Elt F) a5.view (accRect ⟨n, hn⟩).toLoadRect G := by
        funext x
        rw [View.readAt_apply, View.readAt_apply]
        refine View.read_writes_apply_of_forall_not_mem _ _ _ _ (fun q hq hmem => ?_)
        obtain ⟨j, hj, rfl⟩ := ih q hq
        have hmem' : (accRect ⟨n, hn⟩).idx x ∈ (accRect j).set := hmem
        have h0 := (Rect.mem_set_unit.mp hmem') (0 : Fin S2048x256.rank)
        have e0 := accRect_idx0 ⟨n, hn⟩ x
        have hx : (x 0).val < 512 := (x 0).isLt
        rw [k0_off2_eq j] at h0
        have h0' : 512 * j.val ≤ ((accRect ⟨n, hn⟩).idx x 0 : ℕ) ∧ ((accRect ⟨n, hn⟩).idx x 0 : ℕ) < 512 * j.val + 512 := h0
        rw [e0] at h0'
        show False
        have : (⟨n, hn⟩ : Fin k0_t1_loop.trips).val = n := rfl
        omega
      rw [hread]
    · obtain ⟨j, hj, e⟩ := ih p hp
      exact ⟨j, Nat.lt_succ_of_lt hj, e⟩

/-- The accumulator after the loop as one function of its index: at row y, trip ⌊y/512⌋'s arithmetic at local row y mod 512. -/
def loopOut : S2048x256.Idx → Elt F .f32 := fun y =>
  k0_pay2 i v3 (View.readAt (Elt F) a3.view (locRect (rowChunk y)).toLoadRect X)
    (View.readAt (Elt F) a5.view (accRect (rowChunk y)).toLoadRect G) (rowLocal y)

/-- Every piece of the loop is a block of that one function. -/
theorem pb_pieces : ∀ p ∈ pb_k0_t1 (F := F) Variants.none c none i a2 h2 a3 h3 a4 h4 a5 h5 v3 X G k0_t1_loop.trips,
    ∀ x : p.1.shape.Idx, p.2 x = loopOut i a3 a5 v3 X G (p.1.emb x) := by
  intro p hp
  obtain ⟨j, -, rfl⟩ := pb_mem c i a2 h2 a3 h3 a4 h4 a5 h5 v3 X G _ (Nat.le_refl _) p hp
  intro x
  have hx : (x 0).val < 512 := (x 0).isLt
  have e0 : (((accRect j).emb x) 0 : ℕ) = 512 * j.val + (x 0).val := accRect_idx0 j x
  have e1 : (((accRect j).emb x) 1 : ℕ) = (x 1).val := accRect_idx1 j x
  have hq : rowChunk ((accRect j).emb x) = j := Fin.ext (by
    show (((accRect j).emb x) 0 : ℕ) / 512 = j.val
    rw [e0]; omega)
  have hl : rowLocal ((accRect j).emb x) = x := by
    funext a
    refine Fin.ext ?_
    match a with
    | ⟨0, _⟩ => show (((accRect j).emb x) 0 : ℕ) % 512 = (x 0).val; rw [e0]; omega
    | ⟨1, _⟩ => exact e1
  show (piece i a3 a5 v3 X G j).2 x = loopOut i a3 a5 v3 X G ((accRect j).emb x)
  unfold loopOut piece
  rw [hq, hl]

end Loop

end Cert.KernelIdeal.Hand

end
-- ==== Proof.ScratchCases.lean ====
/-
  What one grid point leaves in the accumulator, case by case, as a function of what it found there.

  At a point that is not the first of its batch the body runs the four-chunk loop over the accumulator as it found it;
  at the first point of a batch it first fills the accumulator with zeros; at the last point of a batch it also copies
  the accumulator, after the loop, into the output block.
-/
import proofs.«147679_j50354196579100_2_alg».proof.Proof.LoopPieces
import Idealize.ShloMosaic.Lib.Tactic

noncomputable section

open Idealize.ShloMosaic Idealize.ShloMosaic.TcCoe Idealize.SL.Sem Idealize.ShloMosaic.ValueIdx

namespace Cert.KernelIdeal.Hand

open Cert.KernelIdeal Cert.KernelIdeal.Gen Idealize.ShloMosaic.Tactic

variable {F : FTy → Type} [FloatOps F]

/-- One point's update of the accumulator: at row y, the body's arithmetic of the input tile `x0`, the positions of
    y's chunk and the accumulator's rows of y's chunk, at y's local row. -/
def step (i : grid0.Coords) (x0 : Vec F S1x256x2048 .f32) (x1 : Vec F S1x2048x1 .f32) (acc : Vec F S2048x256 .f32) :
    Vec F S2048x256 .f32 := fun y =>
  k0_pay2 i x0 (fun x => x1 ((locRect (rowChunk y)).toLoadRect.idx x)) (fun x => acc ((accRect (rowChunk y)).toLoadRect.idx x))
    (rowLocal y)

theorem hz3 : (![0, 0, 0] : Fin 3 → Nat) = fun _ => 0 := funext fun a => by fin_cases a <;> rfl
theorem hz2 : (![0, 0] : Fin 2 → Nat) = fun _ => 0 := funext fun a => by fin_cases a <;> rfl

/-- The loop's result over whole buffers held at `x0`, `x1`, `acc` is that update. -/
theorem loopOut_unread (i : grid0.Coords) (a2 : Memref sig .tc .vmem S1x256x2048 .f32) (h2 : a2.IsWhole)
    (a3 : Memref sig .tc .vmem S1x2048x1 .f32) (h3 : a3.IsWhole) (a5 : Memref sig .tc .vmem S2048x256 .f32) (h5 : a5.IsWhole)
    (x0 : Vec F S1x256x2048 .f32) (x1 : Vec F S1x2048x1 .f32) (acc : Vec F S2048x256 .f32) :
    loopOut i a3 a5 (View.readAt (Elt F) a2.view (Rect.unit ![0, 0, 0] ![1, 256, 2048] inb_S1x256x2048_S1x256x2048_0_0_0).toLoadRect
        (h2.unread x0)) (h3.unread x1) (h5.unread acc)
      = step i x0 x1 acc := by
  funext y
  unfold loopOut step
  have e2 : View.readAt (Elt F) a2.view (Rect.unit ![0, 0, 0] ![1, 256, 2048] inb_S1x256x2048_S1x256x2048_0_0_0).toLoadRect
      (h2.unread x0) = x0 := by
    rw [View.readAt_eq_ld, h2.read_unread]
    exact View.ld_unit_zero (S := S1x256x2048) hz3 inb_S1x256x2048_S1x256x2048_0_0_0 x0
  have e3 : View.readAt (Elt F) a3.view (locRect (rowChunk y)).toLoadRect (h3.unread x1)
      = fun x => x1 ((locRect (rowChunk y)).toLoadRect.idx x) := funext fun x => h3.readAt_unread x1 _ x
  have e5 : View.readAt (Elt F) a5.view (accRect (rowChunk y)).toLoadRect (h5.unread acc)
      = fun x => acc ((accRect (rowChunk y)).toLoadRect.idx x) := funext fun x => h5.readAt_unread acc _ x
  rw [e2, e3, e5]
  rfl

/-- The four chunks fill the accumulator: every row lies in some trip's piece. -/
theorem pb_cover (c : Dev nD) (i : grid0.Coords) (a2 : Memref sig .tc .vmem S1x256x2048 .f32) (h2 : a2.IsWhole) (a3 : Memref sig .tc .vmem S1x2048x1 .f32) (h3 : a3.IsWhole) (a4 : Memref sig .tc .vmem S1x2048x256 .f32) (h4 : a4.IsWhole) (a5 : Memref sig .tc .vmem S2048x256 .f32) (h5 : a5.IsWhole) (v3 : Vec F S1x256x2048 .f32) (X : BufTy.Contents (Elt F) a3.view.ty) (G : BufTy.Contents (Elt F) a5.view.ty) (y : S2048x256.Idx) :
    ∃ p ∈ pb_k0_t1 (F := F) Variants.none c none i a2 h2 a3 h3 a4 h4 a5 h5 v3 X G k0_t1_loop.trips, y ∈ p.1.set :=
  View.cover_of_tiledL (s := S2048x256) _ S512x256.size (by sl_kernel_rfl) y

/-- Reading the whole accumulator after the loop, from whole buffers held at `x0`, `x1`, `acc`: the update. -/
theorem read_loop (c : Dev nD) (i : grid0.Coords) (a2 : Memref sig .tc .vmem S1x256x2048 .f32) (h2 : a2.IsWhole) (a3 : Memref sig .tc .vmem S1x2048x1 .f32) (h3 : a3.IsWhole) (a4 : Memref sig .tc .vmem S1x2048x256 .f32) (h4 : a4.IsWhole) (a5 : Memref sig .tc .vmem S2048x256 .f32) (h5 : a5.IsWhole) (x0 : Vec F S1x256x2048 .f32) (x1 : Vec F S1x2048x1 .f32) (acc : Vec F S2048x256 .f32)
    {sig' : RefSig} {κ' : Kind} {sp' : Space} (v : View sig' κ' sp' S2048x256 .f32) (f : v.ty.Contents (Elt F)) (y : S2048x256.Idx) :
    v.read (Elt F) (v.writes (Elt F) f (pb_k0_t1 (F := F) Variants.none c none i a2 h2 a3 h3 a4 h4 a5 h5
        (View.readAt (Elt F) a2.view (Rect.unit (s := S1x256x2048) ![0, 0, 0] S1x256x2048.size inb_S1x256x2048_S1x256x2048_0_0_0).toLoadRect (h2.unread x0))
        (h3.unread x1) (h5.unread acc) k0_t1_loop.trips)) y = step i x0 x1 acc y := by
  refine (View.read_writes_apply_of_pieces _ _ _ _ (pb_pieces c i a2 h2 a3 h3 a4 h4 a5 h5 _ _ _) y
    (pb_cover c i a2 h2 a3 h3 a4 h4 a5 h5 _ _ _ y)).trans ?_
  rw [loopOut_unread]

/-- The same with the accumulator's buffer held at any contents that read `acc`. -/
theorem read_loop' (c : Dev nD) (i : grid0.Coords) (a2 : Memref sig .tc .vmem S1x256x2048 .f32) (h2 : a2.IsWhole) (a3 : Memref sig .tc .vmem S1x2048x1 .f32) (h3 : a3.IsWhole) (a4 : Memref sig .tc .vmem S1x2048x256 .f32) (h4 : a4.IsWhole) (a5 : Memref sig .tc .vmem S2048x256 .f32) (h5 : a5.IsWhole) (x0 : Vec F S1x256x2048 .f32) (x1 : Vec F S1x2048x1 .f32) (acc : Vec F S2048x256 .f32)
    (G : BufTy.Contents (Elt F) a5.view.ty) (hG : a5.view.read (Elt F) G = acc)
    {sig' : RefSig} {κ' : Kind} {sp' : Space} (v : View sig' κ' sp' S2048x256 .f32) (f : v.ty.Contents (Elt F)) (y : S2048x256.Idx) :
    v.read (Elt F) (v.writes (Elt F) f (pb_k0_t1 (F := F) Variants.none c none i a2 h2 a3 h3 a4 h4 a5 h5
        (View.readAt (Elt F) a2.view (Rect.unit (s := S1x256x2048) ![0, 0, 0] S1x256x2048.size inb_S1x256x2048_S1x256x2048_0_0_0).toLoadRect (h2.unread x0))
        (h3.unread x1) G k0_t1_loop.trips)) y = step i x0 x1 acc y := by
  obtain rfl := h5.eq_unread hG
  exact read_loop c i a2 h2 a3 h3 a4 h4 a5 h5 x0 x1 _ v f y

/-- One store of the whole accumulator leaves its payload, whatever the buffer held. -/
theorem read_whole_store {sig' : RefSig} {κ' : Kind} {sp' : Space} (v : View sig' κ' sp' S2048x256 .f32)
    (f : v.ty.Contents (Elt F)) (w : S2048x256.Idx → Elt F .f32) :
    v.read (Elt F) (v.writes (Elt F) f [⟨Rect.unit ![0, 0] S2048x256.size inb_S2048x256_S2048x256_0_0, w⟩]) = w :=
  (View.read_writes_eq_canon (Val := Elt F) v f [⟨Rect.unit ![0, 0] S2048x256.size inb_S2048x256_S2048x256_0_0, w⟩]
    (fun y => ⟨_, List.mem_singleton_self _, View.mem_set_unit_zero hz2 inb_S2048x256_S2048x256_0_0 y⟩)).trans
    (View.canon_unit_zero hz2 inb_S2048x256_S2048x256_0_0 w)

/-- A middle point of a batch: the accumulator found, updated once. -/
theorem sout_B (c : Dev nD) (i : grid0.Coords) (a2 : Memref sig .tc .vmem S1x256x2048 .f32) (h2 : a2.IsWhole) (a3 : Memref sig .tc .vmem S1x2048x1 .f32) (h3 : a3.IsWhole) (a4 : Memref sig .tc .vmem S1x2048x256 .f32) (h4 : a4.IsWhole) (a5 : Memref sig .tc .vmem S2048x256 .f32) (h5 : a5.IsWhole) (hc0 : ¬cond0_0 i) (hc1 : ¬cond0_1 i)
    (x0 : Vec F S1x256x2048 .f32) (x1 : Vec F S1x2048x1 .f32) (xs0 : Vec F S2048x256 .f32) :
    sout0_B_0 c i a2 h2 a3 h3 a4 h4 a5 h5 hc0 hc1 x0 x1 xs0 = step i x0 x1 xs0 := by
  unfold sout0_B_0
  funext y
  unfold kernelRun0_B
  dsimp only
  exact read_loop c i a2 h2 a3 h3 a4 h4 a5 h5 x0 x1 xs0 _ _ y

/-- The last point of a batch: the same update of the accumulator. -/
theorem sout_C (c : Dev nD) (i : grid0.Coords) (a2 : Memref sig .tc .vmem S1x256x2048 .f32) (h2 : a2.IsWhole) (a3 : Memref sig .tc .vmem S1x2048x1 .f32) (h3 : a3.IsWhole) (a4 : Memref sig .tc .vmem S1x2048x256 .f32) (h4 : a4.IsWhole) (a5 : Memref sig .tc .vmem S2048x256 .f32) (h5 : a5.IsWhole) (hc0 : ¬cond0_0 i) (hc1 : cond0_1 i)
    (x0 : Vec F S1x256x2048 .f32) (x1 : Vec F S1x2048x1 .f32) (xs0 : Vec F S2048x256 .f32) :
    sout0_C_0 c i a2 h2 a3 h3 a4 h4 a5 h5 hc0 hc1 x0 x1 xs0 = step i x0 x1 xs0 := by
  unfold sout0_C_0
  funext y
  unfold kernelRun0_C
  dsimp only
  exact read_loop c i a2 h2 a3 h3 a4 h4 a5 h5 x0 x1 xs0 _ _ y

/-- The last point of a batch copies the updated accumulator into the output block (with a leading unit axis). -/
theorem out_C (c : Dev nD) (i : grid0.Coords) (a2 : Memref sig .tc .vmem S1x256x2048 .f32) (h2 : a2.IsWhole) (a3 : Memref sig .tc .vmem S1x2048x1 .f32) (h3 : a3.IsWhole) (a4 : Memref sig .tc .vmem S1x2048x256 .f32) (h4 : a4.IsWhole) (a5 : Memref sig .tc .vmem S2048x256 .f32) (h5 : a5.IsWhole) (hc0 : ¬cond0_0 i) (hc1 : cond0_1 i)
    (x0 : Vec F S1x256x2048 .f32) (x1 : Vec F S1x2048x1 .f32) (xs0 : Vec F S2048x256 .f32) :
    out0_C_2 c i a2 h2 a3 h3 a4 h4 a5 h5 hc0 hc1 x0 x1 xs0 = k0_pay3 (step i x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  refine congrArg k0_pay3 ?_
  rw [View.readAt_eq_ld]
  refine (View.ld_unit_zero (S := S2048x256) hz2 inb_S2048x256_S2048x256_0_0 _).trans ?_
  funext y
  exact read_loop c i a2 h2 a3 h3 a4 h4 a5 h5 x0 x1 xs0 _ _ y

/-- The first point of a batch: the accumulator is filled with the zero block, then updated once. -/
theorem sout_A (c : Dev nD) (i : grid0.Coords) (a2 : Memref sig .tc .vmem S1x256x2048 .f32) (h2 : a2.IsWhole) (a3 : Memref sig .tc .vmem S1x2048x1 .f32) (h3 : a3.IsWhole) (a4 : Memref sig .tc .vmem S1x2048x256 .f32) (h4 : a4.IsWhole) (a5 : Memref sig .tc .vmem S2048x256 .f32) (h5 : a5.IsWhole) (hc0 : cond0_0 i) (hc1 : ¬cond0_1 i)
    (x0 : Vec F S1x256x2048 .f32) (x1 : Vec F S1x2048x1 .f32) :
    sout0_A_0 c i a2 h2 a3 h3 a4 h4 a5 h5 hc0 hc1 x0 x1 = step i x0 x1 k0_pay1 := by
  unfold sout0_A_0
  funext y
  unfold kernelRun0_A
  dsimp only
  sl_unfold_words
  rw [View.writes_append]
  exact read_loop' c i a2 h2 a3 h3 a4 h4 a5 h5 x0 x1 k0_pay1 _ (read_whole_store a5.view a5.view.junk k0_pay1) _ _ y

end Cert.KernelIdeal.Hand

end
-- ==== Proof.Spec.lean ====
/-
  Linear interpolation of a sampled signal, stated twice over the extended reals.

  For a batch b, a channel c and a sample p the sampling position is
      x = min 8191 (max 0 (point[b,p] + 1 · offset[b,p])).
  `tapsOut` is the two-tap form: with lo = ⌊x⌋ and hi = ⌈x⌉, both clipped into [0, 8191] as integers,
      (1 − (x − lo)) · input[b,c,lo] + (x − lo) · input[b,c,hi].
  `hatOut` is the dense form: the sum over all 8192 sites l of the hat weight max 0 (1 − |x − l|) times input[b,c,l],
  taken as four consecutive tiles of 2048 sites.
  Both are functions of the three argument arrays, index by index; that they agree on finite arguments is proved elsewhere.
-/
import Idealize.ShloMosaic.PureOps.Ideal
import Idealize.ShloMosaic.Lib.ValueIdx

noncomputable section

open scoped BigOperators

namespace Interp

open Idealize.ShloMosaic Idealize.ShloMosaic.ValueIdx

/-- The signal: 32 batches, 256 channels, 8192 sites. -/
abbrev SIn : Shape := ⟨3, ![32, 256, 8192]⟩
/-- Points and offsets: 32 batches, 2048 samples, one column. -/
abbrev SPt : Shape := ⟨3, ![32, 2048, 1]⟩
/-- The result: 32 batches, 2048 samples, 256 channels. -/
abbrev SOut : Shape := ⟨3, ![32, 2048, 256]⟩

/-- The sampling position of sample `p` of batch `b`: point plus one times offset, clipped into [0, 8191]. -/
def pos (pt off : SPt.Idx → EReal) (b : Fin 32) (p : Fin 2048) : EReal :=
  min ((8191 : ℝ) : EReal) (max 0 (pt (ix3 b p 0) + 1 * off (ix3 b p 0)))

/-- An integer word clipped into [0, 8191] (signed maximum with 0, then signed minimum with 8191). -/
def clipWord (v : BitVec 32) : BitVec 32 := IntOp.minsi 8191#32 (IntOp.maxsi 0#32 v)

/-- The lower tap's word: the floor of the position, converted to a 32-bit integer and clipped. -/
def loWord (x : EReal) : BitVec 32 := clipWord (Ideal.fptosi 32 (Ideal.liftRound Int.floor x))
/-- The upper tap's word: the ceiling of the position, converted to a 32-bit integer and clipped. -/
def hiWord (x : EReal) : BitVec 32 := clipWord (Ideal.fptosi 32 (Ideal.liftRound Int.ceil x))

/-- The site an index word selects: the word read as a signed integer, clamped into [0, 8191]. -/
def site (v : BitVec 32) : Fin 8192 := ⟨min v.toInt.toNat 8191, by omega⟩

/-- The two-tap form of the result. -/
def tapsOut (inp : SIn.Idx → EReal) (pt off : SPt.Idx → EReal) : SOut.Idx → EReal := fun i =>
  (1 - (pos pt off (i 0) (i 1) - (((loWord (pos pt off (i 0) (i 1))).toInt : ℝ) : EReal)))
      * inp (ix3 (i 0) (i 2) (site (loWord (pos pt off (i 0) (i 1)))))
    + (pos pt off (i 0) (i 1) - (((loWord (pos pt off (i 0) (i 1))).toInt : ℝ) : EReal))
      * inp (ix3 (i 0) (i 2) (site (hiWord (pos pt off (i 0) (i 1)))))

/-- Site `k` of tile `lt`: the site 2048·lt + k. -/
def tileSite (lt : Fin 4) (k : Fin 2048) : Fin 8192 := ⟨2048 * lt.val + k.val, by omega⟩

/-- The hat weight of site `l` for the position `x`: max 0 (1 − |x − l|), the absolute value as max y (−y). -/
def hat (x : EReal) (l : ℕ) : EReal :=
  max 0 (1 - max (x - ((l : ℝ) : EReal)) (-(x - ((l : ℝ) : EReal))))

/-- One tile's part of the dense form: the sum over the tile's 2048 sites of hat weight times signal. -/
def tileSum (inp : SIn.Idx → EReal) (x : EReal) (b : Fin 32) (c : Fin 256) (lt : Fin 4) : EReal :=
  ∑ k : Fin 2048, hat x (tileSite lt k).val * inp (ix3 b c (tileSite lt k))

/-- The dense form of the result: the four tiles' sums, added in order. -/
def hatOut (inp : SIn.Idx → EReal) (pt off : SPt.Idx → EReal) : SOut.Idx → EReal := fun i =>
  tileSum inp (pos pt off (i 0) (i 1)) (i 0) (i 2) 0 + tileSum inp (pos pt off (i 0) (i 1)) (i 0) (i 2) 1
    + tileSum inp (pos pt off (i 0) (i 1)) (i 0) (i 2) 2 + tileSum inp (pos pt off (i 0) (i 1)) (i 0) (i 2) 3

/-! ## The literals of both programs -/

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem toInt_8191 : ((8191#32 : BitVec 32).toInt : ℝ) = 8191 := by
  have : (8191#32 : BitVec 32).toInt = 8191 := by decide
  rw [this]; norm_num

end Interp

end
-- ==== Proof.Payload.lean ====
/-
  The body's arithmetic at one index, over the extended reals.

  One step of the kernel's body takes the signal tile x0 [1, 256, 2048], a chunk xc [1, 512, 1] of the sampling
  positions and a chunk acc [512, 256] of the accumulator, and returns acc plus the product of the hat weights
  [512, 2048] with the signal tile, contracted over the 2048 sites of the tile. Here that is read at one entry
  (r, c): the accumulator there plus the sum over the tile's sites k of
      max 0 (1 − |xc[r] − (2048·i₁ + k)|) · x0[c, k],
  where i₁ is the second grid coordinate (the tile number, below 4). The pieces: the 32-bit site word does not wrap;
  a column broadcast along the lanes reads the column; the product's two index maps, coordinate by coordinate; the
  contraction re-indexed by its one coordinate; the weight at an index; and the assembly.
-/
import proofs.«147679_j50354196579100_2_alg».proof.Proof.Gen.KernelIdeal.Frame
import proofs.«147679_j50354196579100_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The site word: for a tile number n < 4 and a lane k < 2048 the 32-bit word n·2048 + k, read as a signed integer,
    is the natural number 2048·n + k (nothing wraps: the value is below 8192). -/
theorem siteWord_toInt (n k : ℕ) (hn : n < 4) (hk : k < 2048) :
    (BitVec.ofNat 32 n * 2048#32 + BitVec.ofNat 32 k).toInt = ((2048 * n + k : ℕ) : ℤ) := by
  have hnat : (BitVec.ofNat 32 n * 2048#32 + BitVec.ofNat 32 k).toNat = 2048 * n + k := by
    rw [BitVec.toNat_add, BitVec.toNat_mul, BitVec.toNat_ofNat, BitVec.toNat_ofNat, BitVec.toNat_ofNat]
    omega
  rw [BitVec.toInt_eq_toNat_of_lt (by rw [hnat]; omega), hnat]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's index maps

The product contracts axis 1 of the weights [512, 2048] with axis 1 of the signal tile [256, 2048]; the result's
row is the weights' row and its column is the signal's row. -/

/-- The dimension numbers of the body's product, under a short name. -/
abbrev DD : DotDims S512x2048 S256x2048 S512x256 := dot_S512x2048_S256x2048_S512x256_1_1_0_0_n_n

/-- Left operand, axis 0 (free): the result's row. -/
theorem lhs_axis0 (j : S512x256.Idx) (q : DD.contr.Idx) : (DD.lhsIdx j q 0).val = (j 0).val := by
  unfold DotDims.lhsIdx
  rw [dif_neg (show ¬(0 : Fin S512x2048.rank) ∈ DD.lhsBatch by decide),
    dif_pos (show (0 : Fin S512x2048.rank) ∈ DD.lhsNonContracting by decide)]
  rfl

/-- Left operand, axis 1 (contracted): the contraction coordinate. -/
theorem lhs_axis1 (j : S512x256.Idx) (q : DD.contr.Idx) : (DD.lhsIdx j q 1).val = (q ⟨0, by decide⟩).val :=
  DD.lhsIdx_val_of_single rfl j q

/-- Right operand, axis 0 (free): the result's column. -/
theorem rhs_axis0 (j : S512x256.Idx) (q : DD.contr.Idx) : (DD.rhsIdx j q 0).val = (j 1).val := by
  unfold DotDims.rhsIdx
  rw [dif_neg (show ¬(0 : Fin S256x2048.rank) ∈ DD.rhsBatch by decide),
    dif_pos (show (0 : Fin S256x2048.rank) ∈ DD.rhsNonContracting by decide)]
  rfl

/-- Right operand, axis 1 (contracted): the contraction coordinate. -/
theorem rhs_axis1 (j : S512x256.Idx) (q : DD.contr.Idx) : (DD.rhsIdx j q 1).val = (q ⟨0, by decide⟩).val :=
  DD.rhsIdx_val_of_single rfl j q

/-- The product into a zero accumulator, at (r, c): the sum over the 2048 contracted lanes of weight (r, k) times
    signal (c, k). -/
theorem matmul_zero_apply (W : FVec Ideal S512x2048 .bf16) (X : FVec Ideal S256x2048 .bf16) (r : Fin 512) (cc : Fin 256) :
    matmul DD none W X (constant (F := Ideal) S512x256 .f32 0x00000000#32) (ix2 r cc)
      = ∑ k : Fin 2048, W (ix2 r k) * X (ix2 cc k) := by
  refine (Ideal.matmul_constant_zero_apply DD none W X (ix2 r cc)).trans ?_
  refine (Equiv.sum_comp (contrEquiv1 DD 2048 rfl rfl).symm _).symm.trans ?_
  refine Finset.sum_congr rfl fun k _ => ?_
  have hk := contrEquiv1_symm_val DD 2048 rfl rfl k
  have el : DD.lhsIdx (ix2 r cc) ((contrEquiv1 DD 2048 rfl rfl).symm k) = ix2 r k := funext fun a => Fin.ext (by
    match a with
    | ⟨0, _⟩ => exact lhs_axis0 _ _
    | ⟨1, _⟩ => exact (lhs_axis1 _ _).trans hk)
  have er : DD.rhsIdx (ix2 r cc) ((contrEquiv1 DD 2048 rfl rfl).symm k) = ix2 cc k := funext fun a => Fin.ext (by
    match a with
    | ⟨0, _⟩ => exact rhs_axis0 _ _
    | ⟨1, _⟩ => exact (rhs_axis1 _ _).trans hk)
  rw [el, er]

/-! ## The weights and the signal at an index -/

/-- The hat weight at (r, k) of tile n: the position of row r against the site 2048·n + k. The site is the
    lane number added to 2048·n as 32-bit words and converted to a float (exactly: the word is below 8192);
    the position column is broadcast along the lanes and the site row along the rows; the literals are 0 and 1
    and the absolute value is max y (−y). -/
theorem weight_apply (n : ℕ) (hn : n < 4) (xc : Vec Ideal S1x512x1 .f32)
    (h1 : S1x512x1.ShapeCasts S512x1) (h2 : S512x1.Broadcasts S512x2048) (h3 : S1x2048.Broadcasts S512x2048)
    (h4 : S1x2048.Iotas .tc 32 [1]) (r : Fin 512) (k : Fin 2048) :
    (maximumf (broadcast S512x2048 (Scalar.ofBits (F := Ideal) .f32 0x00000000#32))
      (subf (broadcast S512x2048 (Scalar.ofBits (F := Ideal) .f32 0x3F800000#32))
        (absf (subf (broadcastTo S512x2048 (shapeCast S512x1 xc h1) h2)
          (broadcastTo S512x2048
            (sitofp (F := Ideal) .f32 (addi (broadcast S1x2048 (Scalar.muli (BitVec.ofNat 32 n) 2048#32)) (iota .tc S1x2048 32 [1] h4)))
            h3)))) : FVec Ideal S512x2048 .f32) (ix2 r k)
      = Interp.hat (xc (ix3 0 r 0)) (2048 * n + k.val) := by
  have hx : broadcastTo S512x2048 (shapeCast S512x1 xc h1) h2 (ix2 r k) = xc (ix3 0 r 0) :=
    (broadcastTo_a1_ab_apply _ h2 r k).trans (shapeCast_1ab_ab_apply xc h1 r 0)
  have hs : broadcastTo S512x2048
      (sitofp (F := Ideal) .f32 (addi (broadcast S1x2048 (Scalar.muli (BitVec.ofNat 32 n) 2048#32)) (iota .tc S1x2048 32 [1] h4)))
      h3 (ix2 r k) = (((2048 * n + k.val : ℕ) : ℝ) : EReal) := by
    refine (broadcastTo_1b_ab_apply _ h3 r k).trans ?_
    show ((((BitVec.ofNat 32 n * 2048#32 + iota .tc S1x2048 32 [1] h4 (ix2 0 k)).toInt : ℤ) : ℝ) : EReal) = _
    rw [iota_single_apply]
    show ((((BitVec.ofNat 32 n * 2048#32 + BitVec.ofNat 32 k.val).toInt : ℤ) : ℝ) : EReal) = _
    rw [siteWord_toInt n k.val hn k.isLt, Int.cast_natCast]
  show max (Ideal.ofBits .f32 0x00000000#32) (Ideal.ofBits .f32 0x3F800000#32
      - max (broadcastTo S512x2048 (shapeCast S512x1 xc h1) h2 (ix2 r k) - broadcastTo S512x2048
            (sitofp (F := Ideal) .f32 (addi (broadcast S1x2048 (Scalar.muli (BitVec.ofNat 32 n) 2048#32)) (iota .tc S1x2048 32 [1] h4)))
            h3 (ix2 r k))
          (-(broadcastTo S512x2048 (shapeCast S512x1 xc h1) h2 (ix2 r k) - broadcastTo S512x2048
            (sitofp (F := Ideal) .f32 (addi (broadcast S1x2048 (Scalar.muli (BitVec.ofNat 32 n) 2048#32)) (iota .tc S1x2048 32 [1] h4)))
            h3 (ix2 r k)))) = _
  rw [hx, hs, Interp.ofBits_zero, Interp.ofBits_one]
  rfl

/-! ## The body's arithmetic at one index -/

/-- THE PAYLOAD AT (r, c): the accumulator chunk there plus, over the 2048 sites of tile i₁, the hat weight of
    row r's position against site 2048·i₁ + k times the signal tile at (c, k). The format changes to bf16 are the
    identity on extended reals, the product accumulates into a zero splat, and the last cast keeps the shape. -/
theorem pay2_apply (i : grid0.Coords) (x0 : Vec Ideal S1x256x2048 .f32) (xc : Vec Ideal S1x512x1 .f32)
    (acc : Vec Ideal S512x256 .f32) (r : Fin 512) (cc : Fin 256) :
    Gen.k0_pay2 (F := Ideal) i x0 xc acc (ix2 r cc)
      = acc (ix2 r cc) + ∑ k : Fin 2048, Interp.hat (xc (ix3 0 r 0)) (2048 * (i 1).val + k.val) * x0 (ix3 0 cc k) := by
  have hi : (i 1).val < 4 := (i 1).isLt
  unfold Gen.k0_pay2
  dsimp only
  refine (congrFun (shapeCast_self _ _) (ix2 r cc)).trans ?_
  refine (addf_apply _ _ _).trans ?_
  refine congrArg (acc (ix2 r cc) + ·) ?_
  refine (matmul_zero_apply _ _ r cc).trans ?_
  refine Finset.sum_congr rfl fun k _ => ?_
  refine congrArg₂ (· * ·) ?_ ?_
  · exact weight_apply (i 1).val hi xc _ _ _ _ r k
  · exact shapeCast_1ab_ab_apply x0 _ cc k

end Cert.KernelIdeal.Hand

end
-- ==== Proof.Blocks.lean ====
/-
  Where the grid points sit and what their blocks are.

  Grid point t (of 128) is batch t / 4 and site tile t mod 4. The input window's block at t is the 256 × 2048 slab
  input[t/4, :, 2048·(t mod 4) …], the positions window's block is the column positions[t/4, :, 0], and the output
  window's block is out[t/4, :, :], written back at the last tile of each batch.
-/
import proofs.«147679_j50354196579100_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]

variable (m : (ℓ : Loc nD τ sig) → Buf (Elt F) ℓ)

theorem N_eq : cfg0.N = 128 := N_0

/-- Grid point t is batch t / 4, tile t mod 4. -/
theorem coords_facts : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- The three windows' block indices at grid point t. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0)

/-- The input window's block at point t, entry (0, c, k), is input[t/4, c, 2048·(t mod 4) + k]. -/
theorem iblk0_apply (c : Dev nD) (t : Fin cfg0.N) (x : S1x256x2048.Idx) (k : S32x256x8192.Idx)
    (hk0 : (k 0).val = t.val / 4) (hk1 : (k 1).val = (x 1).val) (hk2 : (k 2).val = 2048 * (t.val % 4) + (x 2).val) :
    (iblk m c 0 t : Vec F S1x256x2048 .f32) x = (V m c main_arg0 : S32x256x8192.Idx → Elt F .f32) k := by
  obtain ⟨i0, i1, i2, -⟩ := idx_facts t
  have hx0 : (x 0).val < 1 := (x 0).isLt
  unfold iblk
  rw [View.read_apply]
  show V m c main_arg0 _ = V m c main_arg0 _
  refine congrArg (V m c main_arg0) ?_
  funext a
  apply Fin.ext
  match a with
  | ⟨0, _⟩ => show win0_0.index t (0 : Fin 3) * 1 + 1 * (x 0).val = (k 0).val; rw [i0, hk0]; omega
  | ⟨1, _⟩ => show win0_0.index t (1 : Fin 3) * 256 + 1 * (x 1).val = (k 1).val; rw [i1, hk1]; omega
  | ⟨2, _⟩ => show win0_0.index t (2 : Fin 3) * 2048 + 1 * (x 2).val = (k 2).val; rw [i2, hk2]; omega

/-- The positions window's block at point t, entry (0, p, 0), is positions[t/4, p, 0]. -/
theorem iblk1_apply (c : Dev nD) (t : Fin cfg0.N) (x : S1x2048x1.Idx) (k : S32x2048x1.Idx)
    (hk0 : (k 0).val = t.val / 4) (hk1 : (k 1).val = (x 1).val) :
    (iblk m c 1 t : Vec F S1x2048x1 .f32) x = (V m c main_v6 : S32x2048x1.Idx → Elt F .f32) k := by
  obtain ⟨-, -, -, i0, i1, i2, -⟩ := idx_facts t
  have hx0 : (x 0).val < 1 := (x 0).isLt
  have hx2 : (x 2).val < 1 := (x 2).isLt
  have hk2 : (k 2).val < 1 := (k 2).isLt
  unfold iblk
  rw [View.read_apply]
  show V m c main_v6 _ = V m c main_v6 _
  refine congrArg (V m c main_v6) ?_
  funext a
  apply Fin.ext
  match a with
  | ⟨0, _⟩ => show win0_1.index t (0 : Fin 3) * 1 + 1 * (x 0).val = (k 0).val; rw [i0, hk0]; omega
  | ⟨1, _⟩ => show win0_1.index t (1 : Fin 3) * 2048 + 1 * (x 1).val = (k 1).val; rw [i1, hk1]; omega
  | ⟨2, _⟩ => show win0_1.index t (2 : Fin 3) * 1 + 1 * (x 2).val = (k 2).val; rw [i2]; omega

/-- An index of the result array is in point t's output block iff its batch is t's. -/
theorem mem_blk2 (t : Fin cfg0.N) (i : S32x2048x256.Idx) :
    i ∈ ((cfg0.win 2).blk t).view.set ↔ ∀ a : Fin 3, win0_2.index t a * S1x2048x256.size a ≤ (i a).val
      ∧ (i a).val < win0_2.index t a * S1x2048x256.size a + S1x2048x256.size a := by
  show i ∈ ((View.whole main_v7).slice (win0_2.rect t)).set ↔ _
  rw [View.set_slice_whole, Rect.mem_set_unit]
  exact Iff.rfl

end Cert.KernelIdeal.Hand

end
-- ==== Proof.Accumulate.lean ====
/-
  The accumulation across the four tiles of a batch, over the extended reals.

  One point's update adds to every accumulator entry (p, c) the tile's dense sum: the sum over the tile's 2048 sites k of
  the hat weight of the site 2048·(tile) + k at sample p's position, times input[c, k] of the tile's slab. The first point
  of a batch starts from zero, the next three add on, and the last one copies the accumulator to the output block: after
  the last tile of a batch the output block holds, at (p, c), zero plus the four tiles' sums in order.
-/
import proofs.«147679_j50354196579100_2_alg».proof.Proof.ScratchCases
import proofs.«147679_j50354196579100_2_alg».proof.Proof.Payload
import proofs.«147679_j50354196579100_2_alg».proof.Proof.Blocks
import proofs.«147679_j50354196579100_2_alg».proof.Proof.Gen.KernelIdeal.Value
import Idealize.ShloMosaic.Lib.Pipeline.Value

noncomputable section

open Idealize.ShloMosaic Idealize.ShloMosaic.TcCoe Idealize.SL.Sem Idealize.ShloMosaic.ValueIdx

namespace Cert.KernelIdeal.Hand

open Cert.KernelIdeal Cert.KernelIdeal.Gen Idealize.ShloMosaic.Tactic

open Cert.KernelIdeal.Value

/-- A row of the accumulator as a sample number. -/
abbrev rowOf (y : S2048x256.Idx) : Fin 2048 := ⟨(y 0).val, (y 0).isLt⟩
/-- A column of the accumulator as a channel number. -/
abbrev colOf (y : S2048x256.Idx) : Fin 256 := ⟨(y 1).val, (y 1).isLt⟩

/-- One tile's dense sum at accumulator entry y: over the tile's sites k, hat weight of site 2048·lt + k at the sample's
    position, times the slab's entry (channel, k). -/
def tileTerm (lt : ℕ) (x0 : Vec Ideal S1x256x2048 .f32) (x1 : Vec Ideal S1x2048x1 .f32) (y : S2048x256.Idx) : EReal :=
  ∑ k : Fin 2048, Interp.hat (x1 (ix3 0 (rowOf y) 0)) (2048 * lt + k.val) * x0 (ix3 0 (colOf y) k)

/-- The chunk's accumulator rows, read at the local row of y, are y's own entry. -/
theorem accRect_local (y : S2048x256.Idx) :
    (accRect (rowChunk y)).toLoadRect.idx (ix2 ⟨(y 0).val % 512, Nat.mod_lt _ (by decide)⟩ ⟨(y 1).val, (y 1).isLt⟩) = y := by
  funext a
  refine Fin.ext ?_
  match a with
  | ⟨0, _⟩ =>
    refine (accRect_idx0 (rowChunk y) _).trans ?_
    show 512 * ((y 0).val / 512) + (y 0).val % 512 = (y 0).val
    omega
  | ⟨1, _⟩ => exact accRect_idx1 (rowChunk y) _

/-- The chunk's positions rows, read at the local row of y, are the position of y's sample. -/
theorem locRect_local (y : S2048x256.Idx) :
    (locRect (rowChunk y)).toLoadRect.idx (ix3 0 ⟨(y 0).val % 512, Nat.mod_lt _ (by decide)⟩ 0) = ix3 0 (rowOf y) 0 := by
  funext a
  refine Fin.ext ?_
  rw [LoadRect.idx_apply]
  match a with
  | ⟨0, _⟩ => show k0_off1 (rowChunk y) 0 + 1 * 0 = 0; rw [k0_off1_eq]; rfl
  | ⟨1, _⟩ =>
    show k0_off1 (rowChunk y) 1 + 1 * ((y 0).val % 512) = (y 0).val
    rw [k0_off1_eq]
    show 512 * ((y 0).val / 512) + 1 * ((y 0).val % 512) = (y 0).val
    omega
  | ⟨2, _⟩ => show k0_off1 (rowChunk y) 2 + 1 * 0 = 0; rw [k0_off1_eq]; rfl

/-- Over the extended reals one point's update is "add the tile's dense sum". -/
theorem step_ideal (i : grid0.Coords) (x0 : Vec Ideal S1x256x2048 .f32) (x1 : Vec Ideal S1x2048x1 .f32)
    (acc : Vec Ideal S2048x256 .f32) (y : S2048x256.Idx) :
    step (F := Ideal) i x0 x1 acc y = acc y + tileTerm (i 1).val x0 x1 y := by
  unfold step rowLocal
  refine (pay2_apply i x0 _ _ ⟨(y 0).val % 512, Nat.mod_lt _ (by decide)⟩ ⟨(y 1).val, (y 1).isLt⟩).trans ?_
  show acc ((accRect (rowChunk y)).toLoadRect.idx _) + ∑ k : Fin 2048, Interp.hat (x1 ((locRect (rowChunk y)).toLoadRect.idx _)) _ * _ = _
  rw [accRect_local, locRect_local]
  rfl

/-- The zero block the first point of a batch stores. -/
theorem pay1_apply (y : S2048x256.Idx) : k0_pay1 (F := Ideal) y = 0 := by
  unfold k0_pay1
  rw [shapeCast_self]
  exact Interp.ofBits_zero

/-- The copy into the output block adds a leading unit axis. -/
theorem pay3_apply {F : FTy → Type} [FloatOps F] (v : Vec F S2048x256 .f32) (p : Fin 2048) (cc : Fin 256) :
    k0_pay3 v (ix3 0 p cc) = v (ix2 p cc) := by
  unfold k0_pay3
  exact shapeCast_apply v _ (ix3 0 p cc) (ix2 p cc) (by
    rewrite [Shape.rowMajor_val_two, Shape.rowMajor_val_three]
    show p.val * 256 + cc.val = ((0 : ℕ) * 2048 + p.val) * 256 + cc.val
    omega)

section Acc
variable (m : (ℓ : Loc nD τ sig) → Buf (Elt Ideal) ℓ) (c : Dev nD)

/-- Grid point n's dense sum (zero past the grid, where it is never used). -/
def tileAt (n : ℕ) (y : S2048x256.Idx) : EReal :=
  if h : n < cfg0.N then
    tileTerm ((grid0.coords (⟨n, h⟩ : Fin cfg0.N)) 1).val (iblk m c 0 (⟨n, h⟩ : Fin cfg0.N)) (iblk m c 1 (⟨n, h⟩ : Fin cfg0.N)) y
  else 0

/-- At the first point of a batch the accumulator restarts: zero plus the point's dense sum. -/
theorem sc_reset (n : ℕ) (hb : n < cfg0.N) (h0 : n % 4 = 0) (acc : Vec Ideal S2048x256 .f32) (y : S2048x256.Idx) :
    scAt0_0 m c n hb acc y = 0 + tileAt m c n y := by
  unfold scAt0_0
  rw [dif_pos h0, dif_neg (by omega), sout_A, step_ideal, pay1_apply]
  unfold tileAt
  rw [dif_pos hb]

/-- At the other points it adds the point's dense sum to what the point before left. -/
theorem sc_step (n : ℕ) (hb : n < cfg0.N) (h0 : ¬n % 4 = 0) (acc : Vec Ideal S2048x256 .f32) (y : S2048x256.Idx) :
    scAt0_0 m c n hb acc y = acc y + tileAt m c n y := by
  unfold scAt0_0
  rw [dif_neg h0]
  by_cases h1 : n % 4 = 3
  · rw [dif_pos h1, sout_C, step_ideal]
    unfold tileAt
    rw [dif_pos hb]
  · rw [dif_neg h1, sout_B, step_ideal]
    unfold tileAt
    rw [dif_pos hb]

/-- The accumulator after point t: zero plus the dense sums of its batch's points up to t. -/
theorem scratch_after (t : Fin cfg0.N) (y : S2048x256.Idx) :
    (outsAt0 m c t.val t.isLt).2 y
      = 0 + ∑ s ∈ Finset.range (t.val % 4 + 1), tileAt m c (4 * (t.val / 4) + s) y := by
  rw [soutsAt0_0_eq m c t]
  exact Pipeline.accAt_add_apply (ι := S2048x256.Idx) (β := EReal)
    (fun n h => scAt0_0 m c n h (VS0_0.read (Elt Ideal) VS0_0.junk)) (scAt0_0 m c) (fun _ => 0) (tileAt m c)
    (4 * (t.val / 4)) 3
    (fun h i => sc_reset m c _ h (by omega) _ i)
    (fun n h acc i h1 h2 => sc_step m c n h (by omega) acc i)
    (t.val % 4) (by omega) _ y

/-- At the last point of a batch the output block is the accumulator, with a leading unit axis. -/
theorem out_after (t : Fin cfg0.N) (h3 : t.val % 4 = 3) :
    (outsAt0 m c t.val t.isLt).1 = k0_pay3 ((outsAt0 m c t.val t.isLt).2) := by
  rw [outsAt0_C m c t (by omega) h3]
  dsimp only
  rw [out_C, sout_C]

end Acc

end Cert.KernelIdeal.Hand

end
-- ==== Proof.HostPos.lean ====
/-
  What the region finds in the positions' array, over the extended reals.

  Before the region the host computes, from the points' and the offsets' arrays [32, 2048, 1], the clipped sampling
  positions: both arrays reshaped to [32, 2048], point + 1.0 · offset, the maximum with 0.0, the minimum with the
  float of the integer 8191, and the unit last axis put back. That array is the second window's. Here the host
  operations before the region are composed into one function of the two argument arrays (`hostPos`), the buffer's
  contents at the region's entry are shown to be that function of the launch contents (`V_v6_eq`), and the function is
  read at an index (b, p, 0): min 8191 (max 0 (point[b,p] + 1 · offset[b,p])) (`hostPos_apply`, `V_v6_apply`).
-/
import proofs.«147679_j50354196579100_2_alg».proof.Proof.Gen.KernelIdeal.Frame
import proofs.«147679_j50354196579100_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.ShloMosaic.TcCoe

/-! ## The host's computation as a function of the two argument arrays -/

/-- An [a, b, 1] array reshaped to [a, b] reads, at (i, j), the operand at (i, j, 0): the two row-major positions
    are (i·b + j)·1 + 0 and i·b + j. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- What the host writes into the positions' array before the region, as a function of the points' and the offsets'
    arrays: both reshaped to [32, 2048]; the offsets times the splat of 1.0, added to the points; the maximum with
    the splat of 0.0; the minimum with the splat of the integer 8191 converted to a float; and the result given
    back its unit last axis. -/
def hostPos (pt off : S32x2048x1.Idx → EReal) : S32x2048x1.Idx → EReal :=
  broadcastInDim S32x2048x1 ![0, 1] bcast_S32x2048_S32x2048x1_0_1
    (minimumf (F := Ideal) (φ := .f32)
      (broadcastInDim S32x2048 ![] bcast_S_S32x2048 (sitofp (F := Ideal) .f32 (constantI S_ 32 8191#32)))
      (maximumf (F := Ideal) (φ := .f32)
        (broadcastInDim S32x2048 ![] bcast_S_S32x2048 (constant (F := Ideal) S_ .f32 0x00000000#32))
        (addf (F := Ideal) (φ := .f32) (shapeCast S32x2048 pt shapeCasts_S32x2048x1_S32x2048)
          (mulf (F := Ideal) (φ := .f32)
            (broadcastInDim S32x2048 ![] bcast_S_S32x2048 (constant (F := Ideal) S_ .f32 0x3F800000#32))
            (shapeCast S32x2048 off shapeCasts_S32x2048x1_S32x2048)))))

/-- Read at (b, p, 0) it is the clipped position min 8191 (max 0 (point + 1 · offset)) of sample p of batch b. -/
theorem hostPos_apply (pt off : S32x2048x1.Idx → EReal) (b : Fin 32) (p : Fin 2048) :
    hostPos pt off (ix3 b p 0) = Interp.pos pt off b p := by
  unfold hostPos Interp.pos
  refine (broadcastInDim_apply _ _ _ (ix3 b p 0) (ix2 b p) (fun a => ?_)).trans ?_
  · match a with
    | ⟨0, _⟩ => rfl
    | ⟨1, _⟩ => rfl
  · show min (broadcastInDim S32x2048 ![] bcast_S_S32x2048 (sitofp (F := Ideal) .f32 (constantI S_ 32 8191#32)) (ix2 b p))
        (max (broadcastInDim S32x2048 ![] bcast_S_S32x2048 (constant (F := Ideal) S_ .f32 0x00000000#32) (ix2 b p))
          (shapeCast S32x2048 pt shapeCasts_S32x2048x1_S32x2048 (ix2 b p)
            + broadcastInDim S32x2048 ![] bcast_S_S32x2048 (constant (F := Ideal) S_ .f32 0x3F800000#32) (ix2 b p)
              * shapeCast S32x2048 off shapeCasts_S32x2048x1_S32x2048 (ix2 b p))) = _
    rw [broadcastInDim_scalar_apply, broadcastInDim_scalar_apply, broadcastInDim_scalar_apply,
      shapeCast_ab1_ab_apply, shapeCast_ab1_ab_apply]
    show min ((((8191#32 : BitVec 32).toInt : ℝ) : EReal))
        (max (Ideal.ofBits .f32 0x00000000#32) (pt (ix3 b p 0) + Ideal.ofBits .f32 0x3F800000#32 * off (ix3 b p 0))) = _
    rw [Interp.toInt_8191, Interp.ofBits_zero, Interp.ofBits_one]

/-! ## The region finds it in the positions' array -/

/-- The positions' array when the region is entered is the host's computation on the two argument arrays as the
    launch found them: the host operations before the region, composed in program order. -/
theorem V_v6_eq (m : (ℓ : Loc nD τ sig) → Buf (Elt Ideal) ℓ) (c : Dev nD) :
    (Gen.V (F := Ideal) m c main_v6 : S32x2048x1.Idx → EReal)
      = hostPos (m ((c.tc : Thread nD τ).loc main_arg1)) (m ((c.tc : Thread nD τ).loc main_arg2)) := by
  dsimp only [Gen.V]
  simp only [Gen.hostOps0, Gen.hostOps0_1, Gen.hostOps0_2, List.flatten_cons, List.flatten_nil, List.append_nil,
    List.cons_append, List.nil_append]
  after_results
  rfl

/-- THE POSITIONS' ARRAY AT (b, p, 0): the clipped position of sample p of batch b, from the points' and the offsets'
    arrays as the launch found them. -/
theorem V_v6_apply (m : (ℓ : Loc nD τ sig) → Buf (Elt Ideal) ℓ) (c : Dev nD) (b : Fin 32) (p : Fin 2048) :
    (Gen.V (F := Ideal) m c main_v6 : S32x2048x1.Idx → EReal) (ix3 b p 0)
      = Interp.pos (m ((c.tc : Thread nD τ).loc main_arg1)) (m ((c.tc : Thread nD τ).loc main_arg2)) b p := by
  rw [V_v6_eq m c]
  exact hostPos_apply _ _ b p

end Cert.KernelIdeal.Hand

end
-- ==== Proof.KernelValue.lean ====
/-
  The idealized kernel's result array as one function of the argument arrays.

  The output block of batch b is written back once, after the batch's last tile, and then holds at (p, c) zero plus the
  four tiles' dense sums in order; the tile sums are sums over the slab input[b, c, 2048·tile + k] weighted by the hat
  function at the clipped position of sample p, which the host computed before the launch. The 32 batches' blocks fill
  the result array, so the array is the dense form `Interp.hatOut` of the three arguments.
-/
import proofs.«147679_j50354196579100_2_alg».proof.Proof.Accumulate
import proofs.«147679_j50354196579100_2_alg».proof.Proof.HostPos
import proofs.«147679_j50354196579100_2_alg».proof.Proof.Spec

noncomputable section

open Idealize.ShloMosaic Idealize.ShloMosaic.TcCoe Idealize.SL.Sem Idealize.ShloMosaic.ValueIdx

namespace Cert.KernelIdeal.Hand

open Cert.KernelIdeal Cert.KernelIdeal.Gen Idealize.ShloMosaic.Tactic

open Cert.KernelIdeal.Value
open Idealize.ShloMosaic.Pipeline (Dat)

variable (m : (ℓ : Loc nD τ sig) → Buf (Elt Ideal) ℓ) (ρ : Dev nD → PrngReg)

/-- The result: the dense form of the three argument arrays. -/
def result (c : Dev nD) : Buf (Elt Ideal) ((c : Thread nD τ).loc main_v7) :=
  Interp.hatOut (m ((c.tc : Thread nD τ).loc main_arg0)) (m ((c.tc : Thread nD τ).loc main_arg1)) (m ((c.tc : Thread nD τ).loc main_arg2))

/-- Grid point 4·b + s is tile s of batch b: its dense sum at (p, c) is the tile sum of the specification. -/
theorem tileAt_eq (c : Dev nD) (b : Fin 32) (s : Fin 4) (p : Fin 2048) (cc : Fin 256) :
    tileAt m c (4 * b.val + s.val) (ix2 p cc)
      = Interp.tileSum (m ((c.tc : Thread nD τ).loc main_arg0))
          (Interp.pos (m ((c.tc : Thread nD τ).loc main_arg1)) (m ((c.tc : Thread nD τ).loc main_arg2)) b p) b cc s := by
  have hb : b.val < 32 := b.isLt
  have hs : s.val < 4 := s.isLt
  have hN : 4 * b.val + s.val < cfg0.N := by rw [N_eq]; omega
  unfold tileAt
  rw [dif_pos hN]
  unfold tileTerm Interp.tileSum
  refine Finset.sum_congr rfl (fun k _ => ?_)
  have hk : k.val < 2048 := k.isLt
  have hc1 : ((grid0.coords (⟨4 * b.val + s.val, hN⟩ : Fin cfg0.N)) 1).val = s.val := by
    rw [(coords_facts ⟨4 * b.val + s.val, hN⟩).2]; show (4 * b.val + s.val) % 4 = s.val; omega
  have e1 : (iblk m c 1 (⟨4 * b.val + s.val, hN⟩ : Fin cfg0.N) : Vec Ideal S1x2048x1 .f32) (ix3 0 (rowOf (ix2 p cc)) 0)
      = Interp.pos (m ((c.tc : Thread nD τ).loc main_arg1)) (m ((c.tc : Thread nD τ).loc main_arg2)) b p :=
    (iblk1_apply m c ⟨4 * b.val + s.val, hN⟩ (ix3 0 (rowOf (ix2 p cc)) 0) (ix3 b p 0)
      (by show b.val = (4 * b.val + s.val) / 4; omega) rfl).trans (V_v6_apply m c b p)
  have e0 : (iblk m c 0 (⟨4 * b.val + s.val, hN⟩ : Fin cfg0.N) : Vec Ideal S1x256x2048 .f32) (ix3 0 (colOf (ix2 p cc)) k)
      = m ((c.tc : Thread nD τ).loc main_arg0) (ix3 b cc (Interp.tileSite s k)) :=
    (iblk0_apply m c ⟨4 * b.val + s.val, hN⟩ (ix3 0 (colOf (ix2 p cc)) k) (ix3 b cc (Interp.tileSite s k))
      (by show b.val = (4 * b.val + s.val) / 4; omega) rfl
      (by show 2048 * s.val + k.val = 2048 * ((4 * b.val + s.val) % 4) + k.val; omega)).trans
      (congrFun (V_main_arg0 m c) _)
  rw [e1, e0, hc1]
  rfl

/-- What the write-back after a batch's last tile writes is the batch's block of the result. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have hN : t.val < 128 := lt_of_lt_of_eq t.isLt N_eq
  obtain ⟨-, -, -, -, -, -, i0, i1, i2⟩ := idx_facts t
  rw [flushed2, out_after m c t h3]
  have key : ∀ j : S1x2048x256.Idx,
      k0_pay3 ((outsAt0 m c t.val t.isLt).2) j = result m c (((cfg0.win 2).blk t).view.emb j) := by
    intro j
    obtain ⟨j0, p, cc, rfl⟩ : ∃ (j0 : Fin 1) (p : Fin 2048) (cc : Fin 256), j = ix3 j0 p cc := ⟨j 0, j 1, j 2, eq_ix3 j⟩
    obtain rfl : j0 = 0 := Subsingleton.elim _ _
    have hemb : ((cfg0.win 2).blk t).view.emb (ix3 (0 : Fin 1) p cc)
        = (ix3 (⟨t.val / 4, by omega⟩ : Fin 32) p cc : S32x2048x256.Idx) := by
      funext a
      apply Fin.ext
      match a with
      | ⟨0, _⟩ => show win0_2.index t (0 : Fin 3) * 1 + 1 * 0 = t.val / 4; rw [i0]; omega
      | ⟨1, _⟩ => show win0_2.index t (1 : Fin 3) * 2048 + 1 * p.val = p.val; rw [i1]; omega
      | ⟨2, _⟩ => show win0_2.index t (2 : Fin 3) * 256 + 1 * cc.val = cc.val; rw [i2]; omega
    rw [hemb, pay3_apply, scratch_after m c t (ix2 p cc), h3]
    have hq : 4 * (t.val / 4) = 4 * (⟨t.val / 4, by omega⟩ : Fin 32).val := rfl
    rw [Finset.sum_range_succ, Finset.sum_range_succ, Finset.sum_range_succ, Finset.sum_range_one, zero_add, hq]
    have t0 := tileAt_eq m c ⟨t.val / 4, by omega⟩ 0 p cc
    have t1 := tileAt_eq m c ⟨t.val / 4, by omega⟩ 1 p cc
    have t2 := tileAt_eq m c ⟨t.val / 4, by omega⟩ 2 p cc
    have t3 := tileAt_eq m c ⟨t.val / 4, by omega⟩ 3 p cc
    rw [show (4 * (⟨t.val / 4, by omega⟩ : Fin 32).val + 0) = 4 * (⟨t.val / 4, by omega⟩ : Fin 32).val + (0 : Fin 4).val from rfl, t0,
      show (4 * (⟨t.val / 4, by omega⟩ : Fin 32).val + 1) = 4 * (⟨t.val / 4, by omega⟩ : Fin 32).val + (1 : Fin 4).val from rfl, t1,
      show (4 * (⟨t.val / 4, by omega⟩ : Fin 32).val + 2) = 4 * (⟨t.val / 4, by omega⟩ : Fin 32).val + (2 : Fin 4).val from rfl, t2,
      show (4 * (⟨t.val / 4, by omega⟩ : Fin 32).val + 3) = 4 * (⟨t.val / 4, by omega⟩ : Fin 32).val + (3 : Fin 4).val from rfl, t3]
    rfl
  funext j
  exact key j

/-- After the run the result array is the dense form: the 32 batches' blocks fill it. -/
theorem final (c : Dev nD) : (dats m 0 c).arrAt 2 cfg0.N = result m c :=
  (dats m 0 c).arrAt_eq_of_cover 2 (result m c) (fun t hf => flushed_eq m c t hf) fun i => by
    have hi0 : (i 0).val < 32 := (i 0).isLt
    have hi1 : (i 1).val < 2048 := (i 1).isLt
    have hi2 : (i 2).val < 256 := (i 2).isLt
    have hN : 4 * (i 0).val + 3 < cfg0.N := by rw [N_eq]; omega
    obtain ⟨-, -, -, -, -, -, i0, i1, i2⟩ := idx_facts ⟨4 * (i 0).val + 3, hN⟩
    refine ⟨⟨4 * (i 0).val + 3, hN⟩, (flush0_2 _).mpr (by show (4 * (i 0).val + 3) % 4 = 3; omega), ?_⟩
    rw [mem_blk2]
    intro a
    match a with
    | ⟨0, _⟩ =>
      show win0_2.index ⟨4 * (i 0).val + 3, hN⟩ (0 : Fin 3) * 1 ≤ (i 0).val ∧ (i 0).val < win0_2.index ⟨4 * (i 0).val + 3, hN⟩ (0 : Fin 3) * 1 + 1
      rw [i0]; show (4 * (i 0).val + 3) / 4 * 1 ≤ (i 0).val ∧ (i 0).val < (4 * (i 0).val + 3) / 4 * 1 + 1; omega
    | ⟨1, _⟩ =>
      show win0_2.index ⟨4 * (i 0).val + 3, hN⟩ (1 : Fin 3) * 2048 ≤ (i 1).val ∧ (i 1).val < win0_2.index ⟨4 * (i 0).val + 3, hN⟩ (1 : Fin 3) * 2048 + 2048
      rw [i1]; omega
    | ⟨2, _⟩ =>
      show win0_2.index ⟨4 * (i 0).val + 3, hN⟩ (2 : Fin 3) * 256 ≤ (i 2).val ∧ (i 2).val < win0_2.index ⟨4 * (i 0).val + 3, hN⟩ (2 : Fin 3) * 256 + 256
      rw [i2]; omega

/-- The idealized kernel's run: the result array ends at the dense form of the arguments, which end unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.RefPos.lean ====
/-
  The reference program's position and index stages, read index by index.

  At a batch b and a sample p the program's position stage is the sum point + 1·offset clipped into [0, 8191]
  (maximum with 0, minimum with the float of the integer 8191), which is the shared vocabulary's `pos`; its two index
  stages are the floor and the ceiling of that position, converted to 32-bit integers and clipped as integers into
  [0, 8191]: the shared vocabulary's `loWord` and `hiWord` of the position.  The reshapes of point and offset from
  [32, 2048, 1] to [32, 2048] read (b, p) at (b, p, 0).
-/
import proofs.«147679_j50354196579100_2_alg».proof.Proof.RefRead
import proofs.«147679_j50354196579100_2_alg».proof.Proof.Spec

noncomputable section

namespace Interp.Ref

open Cert.ReferenceIdeal Cert.ReferenceIdeal.ReadP Idealize.ShloMosaic Idealize.ShloMosaic.ValueIdx Idealize.SL.Sem

/-- At the ideal instance the conversion of an integer word to a float is the integer it reads, signed. -/
theorem sitofp_eq (w : BitVec 32) : FloatOps.sitofp (F := Ideal) .f32 w = ((w.toInt : ℝ) : EReal) := rfl
/-- At the ideal instance the conversion of a float to a 32-bit integer is the clamped truncation. -/
theorem fptosi_eq (x : EReal) : FloatOps.fptosi (F := Ideal) (φ := .f32) 32 x = Ideal.fptosi 32 x := rfl

/-- The reshape [32, 2048, 1] → [32, 2048] reads (b, p) at (b, p, 0): point. -/
theorem idx_v0_ix2 (b : Fin 32) (p : Fin 2048) : idx_main_v0 (ix2 b p) = ix3 b p 0 := by
  funext a
  match a with
  | ⟨0, _⟩ => exact Fin.ext (by show (b.val * 2048 + p.val) / 2048 = b.val; omega)
  | ⟨1, _⟩ => exact Fin.ext (by show (b.val * 2048 + p.val) / 1 % 2048 = p.val; omega)
  | ⟨2, _⟩ => rfl

/-- The same for offset. -/
theorem idx_v1_ix2 (b : Fin 32) (p : Fin 2048) : idx_main_v1 (ix2 b p) = ix3 b p 0 := by
  funext a
  match a with
  | ⟨0, _⟩ => exact Fin.ext (by show (b.val * 2048 + p.val) / 2048 = b.val; omega)
  | ⟨1, _⟩ => exact Fin.ext (by show (b.val * 2048 + p.val) / 1 % 2048 = p.val; omega)
  | ⟨2, _⟩ => rfl

/-- The position stage at (b, p) is the clipped position. -/
theorem v5_eq_pos (x1 x2 : (⟨S32x2048x1, .f32⟩ : BufTy).Contents (Elt Ideal)) (b : Fin 32) (p : Fin 2048) :
    val_main_v5 (F := Ideal) x1 x2 (ix2 b p) = Interp.pos x1 x2 b p := by
  rw [val_main_v5_apply, val_main_call0_v4_apply, val_main_call0_v3_apply, val_main_c_apply,
    val_main_call0_v2_apply, val_main_call0_v1_apply, val_main_call0_v0_apply, val_main_cst_0_apply,
    val_main_v4_apply, val_main_v0_apply, val_main_v3_apply, val_main_v2_apply, val_main_cst_apply,
    val_main_v1_apply, idx_v0_ix2, idx_v1_ix2, sitofp_eq, Interp.toInt_8191]
  simp only [Ideal.minimumf_def, Ideal.maximumf_def, Ideal.addf_def, Ideal.mulf_def, Ideal.ofBits_def,
    Interp.ofBits_zero, Interp.ofBits_one]
  rfl

/-- The lower index stage at (b, p) is the lower word of the position. -/
theorem v8_eq_loWord (x1 x2 : (⟨S32x2048x1, .f32⟩ : BufTy).Contents (Elt Ideal)) (b : Fin 32) (p : Fin 2048) :
    val_main_v8 (F := Ideal) x1 x2 (ix2 b p) = Interp.loWord (Interp.pos x1 x2 b p) := by
  rw [val_main_v8_apply, val_main_call1_v4_apply, val_main_call1_v3_apply, val_main_c_2_apply,
    val_main_call1_v2_apply, val_main_call1_v1_apply, val_main_call1_v0_apply, val_main_c_1_apply,
    val_main_v7_apply, val_main_v6_apply, v5_eq_pos, Ideal.hostUnary_floor_def, fptosi_eq]
  rfl

/-- The upper index stage at (b, p) is the upper word of the position. -/
theorem v11_eq_hiWord (x1 x2 : (⟨S32x2048x1, .f32⟩ : BufTy).Contents (Elt Ideal)) (b : Fin 32) (p : Fin 2048) :
    val_main_v11 (F := Ideal) x1 x2 (ix2 b p) = Interp.hiWord (Interp.pos x1 x2 b p) := by
  rw [val_main_v11_apply, val_main_call2_v4_apply, val_main_call2_v3_apply, val_main_c_4_apply,
    val_main_call2_v2_apply, val_main_call2_v1_apply, val_main_call2_v0_apply, val_main_c_3_apply,
    val_main_v10_apply, val_main_v9_apply, v5_eq_pos, Ideal.hostUnary_ceil_def, fptosi_eq]
  rfl

end Interp.Ref

end
-- ==== Proof.RefWords.lean ====
/-
  Facts about clipped index words, used to read the reference program's two gathers.

  A 32-bit word clipped into [0, 8191] (signed maximum with 0, then signed minimum with 8191) reads, as a signed
  integer, between 0 and 8191, whatever the word was.  Consequently, for such a word w:
   * the test w < 0 fails, so "w + 8192 if w < 0 else w" is w;
   * the in-bounds test (w ≥ 0) and (w ≤ 8191) is 1;
  and a conjunction (a fold by `and` from 1) of bits that are all 1 is 1.
-/
import proofs.«147679_j50354196579100_2_alg».proof.Proof.Spec
import Idealize.ShloMosaic.Lib.Affine
import Idealize.ShloMosaic.Lib.ValueIdx
import Idealize.ShloMosaic.PureOps.Reduce

namespace Interp.Ref

open Idealize.ShloMosaic Idealize.ShloMosaic.ValueIdx

theorem toInt_zero32 : (0#32 : BitVec 32).toInt = 0 := by decide
theorem toInt_8191_32 : (8191#32 : BitVec 32).toInt = 8191 := by decide

/-- A clipped word reads between 0 and 8191. -/
theorem clipWord_bounds (v : BitVec 32) : 0 ≤ (clipWord v).toInt ∧ (clipWord v).toInt ≤ 8191 := by
  unfold clipWord IntOp.maxsi IntOp.minsi
  by_cases h1 : v.slt 0#32 = true
  · -- v < 0: the maximum is 0, and 8191 < 0 fails, so the minimum is 0
    rw [if_pos h1, if_neg (by decide), toInt_zero32]
    omega
  · rw [if_neg h1]
    by_cases h2 : (8191#32 : BitVec 32).slt v = true
    · -- 8191 < v: the minimum is 8191
      rw [if_pos h2, toInt_8191_32]
      omega
    · -- 0 ≤ v ≤ 8191: v itself
      rw [if_neg h2]
      rw [BitVec.slt_iff_toInt_lt, toInt_zero32] at h1
      rw [BitVec.slt_iff_toInt_lt, toInt_8191_32] at h2
      omega

/-- For a word that reads nonnegative the test "w < 0" fails: the wrapped alternative is not taken. -/
theorem select_wrap (w a : BitVec 32) (h0 : 0 ≤ w.toInt) : Scalar.select (IntOp.cmpi .slt w 0#32) a w = w := by
  have hne : ¬ IntOp.cmpi .slt w 0#32 = 1#1 := by
    rw [IntOp.cmpi_slt, toInt_zero32]
    omega
  rw [eq_zero_of_ne_one hne, select_zero]

/-- For a word that reads within [0, 8191] the in-bounds test is 1. -/
theorem mask_one (w : BitVec 32) (h0 : 0 ≤ w.toInt) (h1 : w.toInt ≤ 8191) :
    IntOp.andi (IntOp.cmpi .sge w 0#32) (IntOp.cmpi .sle w 8191#32) = 1#1 := by
  rw [IntOp.andi_eq_one, IntOp.cmpi_sge, IntOp.cmpi_sle, toInt_zero32, toInt_8191_32]
  exact ⟨h0, h1⟩

/-- A left fold by `and` from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and` from 1 of an array of bits that are all 1 is 1 at every index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x hx _

end Interp.Ref
-- ==== Proof.RefGather.lean ====
/-
  One gather of the reference program, read at an index.

  The gather has operand [32, 256, 8192], start indices [32, 2048, 1] and result [32, 256, 2048]; axis 0 is a batching
  axis of both, axis 1 of the operand (the channel) is the offset axis, and axis 2 of the operand is indexed and
  collapsed.  So the result at (b, c, p) is the operand at batch b, channel c, and on axis 2 at the start index
  found at (b, p, 0), read as a signed integer and clamped into [0, 8192 - 1] — the site that word selects.
-/
import proofs.«147679_j50354196579100_2_alg».proof.Proof.RefRead
import proofs.«147679_j50354196579100_2_alg».proof.Proof.Spec

noncomputable section

namespace Interp.Ref

open Cert.ReferenceIdeal Cert.ReferenceIdeal.ReadP Idealize.ShloMosaic Idealize.ShloMosaic.ValueIdx Idealize.SL.Sem

abbrev G [Facts₀] := gather_S32x256x8192_S32x2048x1_S32x256x2048_1_2_0_0_2_2_12561

/-- The gather with batch axis 0, offset axis 1 (the channel) and the indexed, collapsed axis 2, read at (b, c, p):
    the operand at batch b, channel c and the site the start index at (b, p, 0) selects (read signed, clamped into
    [0, 8191]). -/
theorem gather_apply [Facts₀] {α : Type} (x : S32x256x8192.Idx → α) (idx : IVec S32x2048x1 32)
    (b : Fin 32) (c : Fin 256) (p : Fin 2048) :
    Host.gather G x idx (ix3 b c p) = x (ix3 b c (Interp.site (idx (ix3 b p 0)))) := by
  unfold Host.gather
  congr 1
  funext a
  refine Fin.ext ?_
  match a with
  | ⟨0, _⟩ =>
    show G.start (ix3 b c p) idx 0 + G.batchCoord (ix3 b c p) 0 + G.offCoord (ix3 b c p) 0 = b.val
    have h1 : G.start (ix3 b c p) idx 0 = 0 := rfl
    have h2 : G.batchCoord (ix3 b c p) 0 = b.val := rfl
    have h3 : G.offCoord (ix3 b c p) 0 = 0 := rfl
    rw [h1, h2, h3]
    omega
  | ⟨1, _⟩ =>
    show G.start (ix3 b c p) idx 1 + G.batchCoord (ix3 b c p) 1 + G.offCoord (ix3 b c p) 1 = c.val
    have h1 : G.start (ix3 b c p) idx 1 = 0 := rfl
    have h2 : G.batchCoord (ix3 b c p) 1 = 0 := rfl
    have h3 : G.offCoord (ix3 b c p) 1 = c.val := rfl
    rw [h1, h2, h3]
    omega
  | ⟨2, _⟩ =>
    show G.start (ix3 b c p) idx 2 + G.batchCoord (ix3 b c p) 2 + G.offCoord (ix3 b c p) 2
      = min (idx (ix3 b p 0)).toInt.toNat 8191
    rw [GatherDims.batchCoord_eq_zero _ _ _ (show (2 : Fin 3) ∉ G.operandBatchingDims from fun h => absurd (List.mem_singleton.mp h) (by decide)),
      GatherDims.offCoord_eq_zero _ _ _ (fun h => ((GatherDims.mem_sKept _ _).mp h).1 (show (2 : Fin 3) ∈ G.collapsedSliceDims from List.mem_singleton.mpr rfl))]
    simp only [Nat.add_zero]
    unfold GatherDims.start
    rw [dif_pos (show (2 : Fin 3) ∈ G.startIndexMap from List.mem_singleton.mpr rfl)]
    have hsi : G.siIdx (ix3 b c p) ⟨List.idxOf (2 : Fin 3) G.startIndexMap,
        List.idxOf_lt_length_iff.2 (show (2 : Fin 3) ∈ G.startIndexMap from List.mem_singleton.mpr rfl)⟩ = ix3 b p 0 := by
      funext b'; refine Fin.ext ?_
      match b' with
      | ⟨0, _⟩ => rfl
      | ⟨1, _⟩ => rfl
      | ⟨2, _⟩ => rfl
    rw [hsi]
    rfl

end Interp.Ref

end
-- ==== Proof.RefTake.lean ====
/-
  The reference program's two takes along the site axis, read at an index.

  Each take broadcasts an index stage to [32, 1, 2048], replaces a negative index w by w + 8192, reshapes to
  [32, 2048, 1], gathers, and keeps the gathered value where the index is in bounds (0 ≤ w ≤ 8191, a conjunction
  over the unit axis) and a not-a-number constant elsewhere.  Both index stages are words clipped into [0, 8191], so
  no index is negative and every index is in bounds: the take at (b, c, p) is the signal at batch b, channel c and
  the site the index stage selects at (b, p).
-/
import proofs.«147679_j50354196579100_2_alg».proof.Proof.RefRead
import proofs.«147679_j50354196579100_2_alg».proof.Proof.Spec
import proofs.«147679_j50354196579100_2_alg».proof.Proof.RefWords
import proofs.«147679_j50354196579100_2_alg».proof.Proof.RefGather

noncomputable section

namespace Interp.Ref

open Cert.ReferenceIdeal Cert.ReferenceIdeal.ReadP Idealize.ShloMosaic Idealize.ShloMosaic.ValueIdx Idealize.SL.Sem

/-! ## The take along the site axis at the lower index stage -/

/-- The lower index stage is a clipped word at every index, so it reads within [0, 8191]. -/
theorem v8_bounds (x1 x2 : (⟨S32x2048x1, .f32⟩ : BufTy).Contents (Elt Ideal)) (k : S32x2048.Idx) :
    0 ≤ (val_main_v8 (F := Ideal) x1 x2 k).toInt ∧ (val_main_v8 (F := Ideal) x1 x2 k).toInt ≤ 8191 := by
  have e : val_main_v8 (F := Ideal) x1 x2 k = Interp.clipWord (val_main_v7 (F := Ideal) x1 x2 k) := by
    rw [val_main_v8_apply, val_main_call1_v4_apply, val_main_call1_v3_apply, val_main_c_2_apply,
      val_main_call1_v2_apply, val_main_call1_v1_apply, val_main_call1_v0_apply, val_main_c_1_apply]
    rfl
  rw [e]
  exact clipWord_bounds _

/-- The start indices of the gather: the index stage itself (broadcast, the negative wrap not taken, reshaped). -/
theorem call3_v5_eq (x1 x2 : (⟨S32x2048x1, .f32⟩ : BufTy).Contents (Elt Ideal)) (i : S32x2048x1.Idx) :
    val_main_call3_v5 (F := Ideal) x1 x2 i
      = val_main_v8 (F := Ideal) x1 x2 (idx_main_v16 (idx_main_call3_v5 i)) := by
  rw [val_main_call3_v5_apply, val_main_call3_v4_apply, val_main_call3_v1_apply, val_main_call3_v0_apply, val_main_call3_c_apply,
    val_main_v16_apply]
  exact select_wrap _ _ (v8_bounds x1 x2 _).1

/-- The in-bounds test of the start indices is 1 everywhere. -/
theorem call3_v11_one (x1 x2 : (⟨S32x2048x1, .f32⟩ : BufTy).Contents (Elt Ideal)) (i : S32x2048x1.Idx) :
    val_main_call3_v11 (F := Ideal) x1 x2 i = 1#1 := by
  rw [val_main_call3_v11_apply, val_main_call3_v7_apply, val_main_call3_v10_apply, val_main_call3_v6_apply, val_main_call3_c_2_apply,
    val_main_call3_v9_apply, val_main_call3_v8_apply, val_main_call3_c_1_apply, call3_v5_eq]
  exact mask_one _ (v8_bounds x1 x2 _).1 (v8_bounds x1 x2 _).2

/-- So its conjunction over the unit axis is 1 everywhere. -/
theorem call3_v12_one (x1 x2 : (⟨S32x2048x1, .f32⟩ : BufTy).Contents (Elt Ideal)) (k : S32x2048.Idx) :
    val_main_call3_v12 (F := Ideal) x1 x2 k = 1#1 := by
  unfold val_main_call3_v12
  exact reduce_andi_one _ _ _ _ _ (call3_v11_one x1 x2) (fun _ => rfl)

/-- The start index read at (b, p, 0) is the index stage at (b, p). -/
theorem idx_call3_v5_ix3 (b : Fin 32) (p : Fin 2048) : idx_main_v16 (idx_main_call3_v5 (ix3 b p 0)) = ix2 b p := by
  funext a
  match a with
  | ⟨0, _⟩ => exact Fin.ext (by show ((b.val * 2048 + p.val) * 1 + 0) / 2048 = b.val; omega)
  | ⟨1, _⟩ => exact Fin.ext (by show ((b.val * 2048 + p.val) * 1 + 0) % 2048 = p.val; omega)

/-- The take at (b, c, p): the signal at batch b, channel c and the site the index stage selects at (b, p); the
    mask is 1, so the gathered value is kept. -/
theorem v17_eq (x0 : (⟨S32x256x8192, .f32⟩ : BufTy).Contents (Elt Ideal))
    (x1 x2 : (⟨S32x2048x1, .f32⟩ : BufTy).Contents (Elt Ideal)) (b : Fin 32) (c : Fin 256) (p : Fin 2048) :
    val_main_v17 (F := Ideal) x0 x1 x2 (ix3 b c p)
      = x0 (ix3 b c (Interp.site (val_main_v8 (F := Ideal) x1 x2 (ix2 b p)))) := by
  rw [val_main_v17_apply, val_main_call3_v14_apply, call3_v12_one, select_one]
  unfold val_main_call3_v13
  rw [gather_apply, call3_v5_eq, idx_call3_v5_ix3]

/-! ## The take along the site axis at the upper index stage -/

/-- The upper index stage is a clipped word at every index, so it reads within [0, 8191]. -/
theorem v11_bounds (x1 x2 : (⟨S32x2048x1, .f32⟩ : BufTy).Contents (Elt Ideal)) (k : S32x2048.Idx) :
    0 ≤ (val_main_v11 (F := Ideal) x1 x2 k).toInt ∧ (val_main_v11 (F := Ideal) x1 x2 k).toInt ≤ 8191 := by
  have e : val_main_v11 (F := Ideal) x1 x2 k = Interp.clipWord (val_main_v10 (F := Ideal) x1 x2 k) := by
    rw [val_main_v11_apply, val_main_call2_v4_apply, val_main_call2_v3_apply, val_main_c_4_apply,
      val_main_call2_v2_apply, val_main_call2_v1_apply, val_main_call2_v0_apply, val_main_c_3_apply]
    rfl
  rw [e]
  exact clipWord_bounds _

/-- The start indices of the gather: the index stage itself (broadcast, the negative wrap not taken, reshaped). -/
theorem call4_v5_eq (x1 x2 : (⟨S32x2048x1, .f32⟩ : BufTy).Contents (Elt Ideal)) (i : S32x2048x1.Idx) :
    val_main_call4_v5 (F := Ideal) x1 x2 i
      = val_main_v11 (F := Ideal) x1 x2 (idx_main_v18 (idx_main_call4_v5 i)) := by
  rw [val_main_call4_v5_apply, val_main_call4_v4_apply, val_main_call4_v1_apply, val_main_call4_v0_apply, val_main_call4_c_apply,
    val_main_v18_apply]
  exact select_wrap _ _ (v11_bounds x1 x2 _).1

/-- The in-bounds test of the start indices is 1 everywhere. -/
theorem call4_v11_one (x1 x2 : (⟨S32x2048x1, .f32⟩ : BufTy).Contents (Elt Ideal)) (i : S32x2048x1.Idx) :
    val_main_call4_v11 (F := Ideal) x1 x2 i = 1#1 := by
  rw [val_main_call4_v11_apply, val_main_call4_v7_apply, val_main_call4_v10_apply, val_main_call4_v6_apply, val_main_call4_c_2_apply,
    val_main_call4_v9_apply, val_main_call4_v8_apply, val_main_call4_c_1_apply, call4_v5_eq]
  exact mask_one _ (v11_bounds x1 x2 _).1 (v11_bounds x1 x2 _).2

/-- So its conjunction over the unit axis is 1 everywhere. -/
theorem call4_v12_one (x1 x2 : (⟨S32x2048x1, .f32⟩ : BufTy).Contents (Elt Ideal)) (k : S32x2048.Idx) :
    val_main_call4_v12 (F := Ideal) x1 x2 k = 1#1 := by
  unfold val_main_call4_v12
  exact reduce_andi_one _ _ _ _ _ (call4_v11_one x1 x2) (fun _ => rfl)

/-- The start index read at (b, p, 0) is the index stage at (b, p). -/
theorem idx_call4_v5_ix3 (b : Fin 32) (p : Fin 2048) : idx_main_v18 (idx_main_call4_v5 (ix3 b p 0)) = ix2 b p := by
  funext a
  match a with
  | ⟨0, _⟩ => exact Fin.ext (by show ((b.val * 2048 + p.val) * 1 + 0) / 2048 = b.val; omega)
  | ⟨1, _⟩ => exact Fin.ext (by show ((b.val * 2048 + p.val) * 1 + 0) % 2048 = p.val; omega)

/-- The take at (b, c, p): the signal at batch b, channel c and the site the index stage selects at (b, p); the
    mask is 1, so the gathered value is kept. -/
theorem v19_eq (x0 : (⟨S32x256x8192, .f32⟩ : BufTy).Contents (Elt Ideal))
    (x1 x2 : (⟨S32x2048x1, .f32⟩ : BufTy).Contents (Elt Ideal)) (b : Fin 32) (c : Fin 256) (p : Fin 2048) :
    val_main_v19 (F := Ideal) x0 x1 x2 (ix3 b c p)
      = x0 (ix3 b c (Interp.site (val_main_v11 (F := Ideal) x1 x2 (ix2 b p)))) := by
  rw [val_main_v19_apply, val_main_call4_v14_apply, call4_v12_one, select_one]
  unfold val_main_call4_v13
  rw [gather_apply, call4_v5_eq, idx_call4_v5_ix3]

end Interp.Ref

end
-- ==== Proof.RefTaps.lean ====
/-
  The reference program's result, read index by index, is the two-tap form of the shared vocabulary.

  At (b, p, c) the result is the transpose of w0 · g0 + w1 · g1 at (b, c, p), where, with x the clipped position of
  sample p of batch b and lo, hi its two index words,
      w1 = x - float(lo),   w0 = 1 - w1      (both broadcast along the channel axis),
      g0 = signal[b, c, site lo],   g1 = signal[b, c, site hi]   (the two takes).
  This holds for all extended-real arguments: the index words are clipped into [0, 8191] whatever the position is.
-/
import proofs.«147679_j50354196579100_2_alg».proof.Proof.RefRead
import proofs.«147679_j50354196579100_2_alg».proof.Proof.Spec
import proofs.«147679_j50354196579100_2_alg».proof.Proof.RefPos
import proofs.«147679_j50354196579100_2_alg».proof.Proof.RefTake

noncomputable section

namespace Interp.Ref

open Cert.ReferenceIdeal Cert.ReferenceIdeal.ReadP Idealize.ShloMosaic Idealize.ShloMosaic.ValueIdx Idealize.SL.Sem

/-- The transpose [0, 2, 1] reads (b, p, c) at (b, c, p). -/
theorem idx_v27_ix3 (b : Fin 32) (p : Fin 2048) (c : Fin 256) : idx_main_v27 (ix3 b p c) = ix3 b c p := by
  funext a
  match a with
  | ⟨0, _⟩ => rfl
  | ⟨1, _⟩ => rfl
  | ⟨2, _⟩ => rfl

/-- The two broadcasts of the lower weight along the channel axis read (b, c, p) at (b, p). -/
theorem idx_v20_v21 (b : Fin 32) (c : Fin 256) (p : Fin 2048) : idx_main_v20 (idx_main_v21 (ix3 b c p)) = ix2 b p := by
  funext a
  match a with
  | ⟨0, _⟩ => rfl
  | ⟨1, _⟩ => rfl

/-- The same for the upper weight. -/
theorem idx_v23_v24 (b : Fin 32) (c : Fin 256) (p : Fin 2048) : idx_main_v23 (idx_main_v24 (ix3 b c p)) = ix2 b p := by
  funext a
  match a with
  | ⟨0, _⟩ => rfl
  | ⟨1, _⟩ => rfl

theorem ref_eq_taps (x0 : (⟨Cert.ReferenceIdeal.S32x256x8192, .f32⟩ : BufTy).Contents (Elt Ideal))
    (x1 x2 : (⟨Cert.ReferenceIdeal.S32x2048x1, .f32⟩ : BufTy).Contents (Elt Ideal)) :
    Cert.ReferenceIdeal.ReadP.val_main_v27 (F := Ideal) x0 x1 x2 = Interp.tapsOut x0 x1 x2 := by
  funext i
  obtain ⟨b, p, c, rfl⟩ : ∃ b p c, i = ix3 b p c := ⟨i 0, i 1, i 2, eq_ix3 i⟩
  rw [val_main_v27_apply, idx_v27_ix3, val_main_v26_apply, val_main_v22_apply, val_main_v25_apply, v17_eq, v19_eq,
    val_main_v21_apply, val_main_v20_apply, idx_v20_v21, val_main_v24_apply, val_main_v23_apply, idx_v23_v24,
    val_main_v15_apply, val_main_v14_apply, val_main_cst_5_apply, val_main_v13_apply, val_main_v12_apply,
    v5_eq_pos, v8_eq_loWord, v11_eq_hiWord, sitofp_eq]
  simp only [Ideal.addf_def, Ideal.mulf_def, Ideal.subf_def, Ideal.ofBits_def, Interp.ofBits_one]
  rfl

end Interp.Ref

end
-- ==== Proof.HatWeights.lean ====
/-
  The hat function on the integers.

  For a real position x and an integer site l the hat weight is max 0 (1 - |x - l|), the absolute value written
  max y (-y).  It is 0 as soon as l is at distance at least 1 from x.  So if n ≤ x < n + 1, the only sites that can
  carry weight are n, with weight 1 - (x - n), and n + 1, with weight x - n (which is 0 when x = n).  Summing the
  weights against any sequence a over the sites 0, …, N - 1, for 0 ≤ x ≤ N - 1, therefore gives the two-tap
  linear interpolation
      (1 - (x - ⌊x⌋)) · a ⌊x⌋ + (x - ⌊x⌋) · a ⌈x⌉ :
  when x is an integer the second weight is 0, and otherwise ⌈x⌉ = ⌊x⌋ + 1 ≤ N - 1 is a site of the range.
-/
import Mathlib.Algebra.Order.Archimedean.Real.Basic
import Mathlib.Algebra.Order.Floor.Ring
import Mathlib.Algebra.BigOperators.Group.Finset.Basic
import Mathlib.Algebra.BigOperators.Group.Finset.Piecewise
import Mathlib.Tactic.Linarith
import Mathlib.Tactic.Ring
import Mathlib.Tactic.NormNum
import Mathlib.Tactic.Push

open scoped BigOperators

namespace HatWeights

/-- The hat weight of the integer site `l` for the real position `x`: max 0 (1 - |x - l|). -/
def hatR (x : ℝ) (l : ℕ) : ℝ := max 0 (1 - max (x - (l : ℝ)) (-(x - (l : ℝ))))

/-- A site at least one unit below the position has weight 0: there x - l ≥ 1. -/
theorem hatR_eq_zero_of_add_one_le {x : ℝ} {l : ℕ} (h : (l : ℝ) + 1 ≤ x) : hatR x l = 0 := by
  unfold hatR
  have h1 : max (x - (l : ℝ)) (-(x - (l : ℝ))) = x - (l : ℝ) := max_eq_left (by linarith)
  rw [h1]
  exact max_eq_left (by linarith)

/-- A site at least one unit above the position has weight 0: there l - x ≥ 1. -/
theorem hatR_eq_zero_of_le_sub_one {x : ℝ} {l : ℕ} (h : x + 1 ≤ (l : ℝ)) : hatR x l = 0 := by
  unfold hatR
  have h1 : max (x - (l : ℝ)) (-(x - (l : ℝ))) = -(x - (l : ℝ)) := max_eq_right (by linarith)
  rw [h1]
  exact max_eq_left (by linarith)

/-- The site just below (or at) the position: weight 1 - (x - n). -/
theorem hatR_lower {x : ℝ} {n : ℕ} (h0 : (n : ℝ) ≤ x) (h1 : x < (n : ℝ) + 1) : hatR x n = 1 - (x - (n : ℝ)) := by
  unfold hatR
  have h2 : max (x - (n : ℝ)) (-(x - (n : ℝ))) = x - (n : ℝ) := max_eq_left (by linarith)
  rw [h2]
  exact max_eq_right (by linarith)

/-- The site just above the position: weight x - n. -/
theorem hatR_upper {x : ℝ} {n : ℕ} (h0 : (n : ℝ) ≤ x) (h1 : x < (n : ℝ) + 1) : hatR x (n + 1) = x - (n : ℝ) := by
  unfold hatR
  have hc : (((n + 1 : ℕ)) : ℝ) = (n : ℝ) + 1 := by push_cast; ring
  rw [hc]
  have h2 : max (x - ((n : ℝ) + 1)) (-(x - ((n : ℝ) + 1))) = -(x - ((n : ℝ) + 1)) := max_eq_right (by linarith)
  rw [h2]
  have h3 : 1 - -(x - ((n : ℝ) + 1)) = x - (n : ℝ) := by ring
  rw [h3]
  exact max_eq_right (by linarith)

/-- Site by site: the weighted term is the lower tap's contribution at l = n, the upper tap's at l = n + 1, else 0. -/
theorem hatR_mul_eq {x : ℝ} {n : ℕ} (h0 : (n : ℝ) ≤ x) (h1 : x < (n : ℝ) + 1) (a : ℕ → ℝ) (l : ℕ) :
    hatR x l * a l
      = (if l = n then (1 - (x - (n : ℝ))) * a n else 0) + (if l = n + 1 then (x - (n : ℝ)) * a (n + 1) else 0) := by
  rcases lt_trichotomy l n with hl | hl | hl
  · -- l < n: l + 1 ≤ n ≤ x
    have hl' : (l : ℝ) + 1 ≤ (n : ℝ) := by exact_mod_cast hl
    rw [hatR_eq_zero_of_add_one_le (by linarith), if_neg (by omega), if_neg (by omega)]
    ring
  · subst hl
    rw [hatR_lower h0 h1, if_pos rfl, if_neg (by omega)]
    ring
  · rcases Nat.lt_or_ge (n + 1) l with hl2 | hl2
    · -- n + 2 ≤ l: x + 1 < n + 2 ≤ l
      have hl' : (n : ℝ) + 2 ≤ (l : ℝ) := by exact_mod_cast hl2
      rw [hatR_eq_zero_of_le_sub_one (by linarith), if_neg (by omega), if_neg (by omega)]
      ring
    · have hl3 : l = n + 1 := by omega
      subst hl3
      rw [hatR_upper h0 h1, if_neg (by omega), if_pos rfl]
      ring

/-- The hat-weighted sum over the sites 0, …, N - 1, for n ≤ x < n + 1 and x ≤ N - 1, with `m` any site that is
    n + 1 unless x = n (when its weight is 0 and it does not matter). -/
theorem sum_hatR_of_le_of_lt (N : ℕ) {x : ℝ} {n m : ℕ} (h0 : (n : ℝ) ≤ x) (h1 : x < (n : ℝ) + 1)
    (hN : x ≤ (N : ℝ) - 1) (hm : x = (n : ℝ) ∨ m = n + 1) (a : ℕ → ℝ) :
    ∑ l ∈ Finset.range N, hatR x l * a l = (1 - (x - (n : ℝ))) * a n + (x - (n : ℝ)) * a m := by
  have hnN : n < N := by
    have : (n : ℝ) < (N : ℝ) := by linarith
    exact_mod_cast this
  simp only [hatR_mul_eq h0 h1 a, Finset.sum_add_distrib, Finset.sum_ite_eq', Finset.mem_range, if_pos hnN]
  congr 1
  rcases eq_or_lt_of_le h0 with hx | hx
  · -- x = n: the upper weight is 0 on both sides
    have hz : x - (n : ℝ) = 0 := by linarith
    rw [hz]
    split_ifs <;> ring
  · -- n < x: then n + 1 ≤ N - 1 is a site of the range, and m = n + 1
    have hm' : m = n + 1 := by
      rcases hm with hm | hm
      · exact absurd hm.symm (ne_of_lt hx)
      · exact hm
    have hn1N : n + 1 < N := by
      have : (n : ℝ) + 1 < (N : ℝ) := by linarith
      exact_mod_cast this
    rw [if_pos hn1N, hm']

/-- The hat-weighted sum is the two-tap linear interpolation between the sites ⌊x⌋ and ⌈x⌉. -/
theorem sum_hatR (N : ℕ) {x : ℝ} (hx0 : 0 ≤ x) (hxN : x ≤ (N : ℝ) - 1) (a : ℕ → ℝ) :
    ∑ l ∈ Finset.range N, hatR x l * a l
      = (1 - (x - ((⌊x⌋ : ℤ) : ℝ))) * a ⌊x⌋.toNat + (x - ((⌊x⌋ : ℤ) : ℝ)) * a ⌈x⌉.toNat := by
  have hfl : (0 : ℤ) ≤ ⌊x⌋ := Int.floor_nonneg.mpr hx0
  have hcast : ((⌊x⌋.toNat : ℕ) : ℤ) = ⌊x⌋ := Int.toNat_of_nonneg hfl
  have hcastR : ((⌊x⌋.toNat : ℕ) : ℝ) = ((⌊x⌋ : ℤ) : ℝ) := by
    rw [← Int.cast_natCast (R := ℝ) ⌊x⌋.toNat, hcast]
  have h0 : ((⌊x⌋.toNat : ℕ) : ℝ) ≤ x := by rw [hcastR]; exact Int.floor_le x
  have h1 : x < ((⌊x⌋.toNat : ℕ) : ℝ) + 1 := by rw [hcastR]; exact Int.lt_floor_add_one x
  have hm : x = ((⌊x⌋.toNat : ℕ) : ℝ) ∨ ⌈x⌉.toNat = ⌊x⌋.toNat + 1 := by
    rcases eq_or_lt_of_le h0 with hx | hx
    · exact Or.inl hx.symm
    · right
      have hc : ⌈x⌉ = ⌊x⌋ + 1 := by
        rw [Int.ceil_eq_iff]
        constructor
        · push_cast; rw [← hcastR]; linarith
        · push_cast; rw [← hcastR]; linarith
      rw [hc]
      omega
  rw [sum_hatR_of_le_of_lt N h0 h1 hxN hm a, hcastR]

end HatWeights
-- ==== Proof.Bridge.lean ====
/-
  The dense (hat-weighted) form of the interpolation agrees with the two-tap form on finite arguments.

  With all entries real, the sampling position is a real x with 0 ≤ x ≤ 8191.  Then
   * the floor and the ceiling of x are integers in [0, 8191]; converting them to 32-bit words and clipping into
     [0, 8191] changes nothing, so the lower word reads back as ⌊x⌋ and selects the site ⌊x⌋, the upper word the site ⌈x⌉;
   * every hat weight and every product is a real, so each tile's sum is (the coercion of) a real sum, and the four
     tiles of 2048 consecutive sites, added in order, are the one sum over the sites 0, …, 8191;
   * the real identity of the hat weights (the sum is the linear interpolation between the sites ⌊x⌋ and ⌈x⌉) finishes.
  Subtraction and negation of extended reals are only used on coerced reals, where they are the real operations.
-/
import proofs.«147679_j50354196579100_2_alg».proof.Proof.Spec
import proofs.«147679_j50354196579100_2_alg».proof.Proof.HatWeights

noncomputable section

open scoped BigOperators

namespace Interp

open Idealize.ShloMosaic Idealize.ShloMosaic.ValueIdx

theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

/-- Converting an integer-valued real n with 0 ≤ n ≤ 8191 to a 32-bit word gives the word of n. -/
theorem fptosi_intCast (n : ℤ) (h0 : 0 ≤ n) (h1 : n ≤ 8191) :
    Ideal.fptosi 32 (((n : ℝ)) : EReal) = BitVec.ofInt 32 n := by
  have hn : (0 : ℝ) ≤ (n : ℝ) := by exact_mod_cast h0
  rw [Ideal.fptosi, Ideal.toIntClamped_coe, if_pos hn, Int.floor_intCast]
  congr 1
  have e : ((2 ^ (32 - 1) : ℕ) : ℤ) = 2147483648 := by norm_num
  rw [e]
  omega

/-- The word of an integer n with 0 ≤ n ≤ 8191 reads back as n. -/
theorem toInt_ofInt_small (n : ℤ) (h0 : 0 ≤ n) (h1 : n ≤ 8191) : (BitVec.ofInt 32 n).toInt = n :=
  BitVec.toInt_ofInt_eq_self (by decide) (by norm_num; omega) (by norm_num; omega)

/-- Clipping into [0, 8191] leaves such a word alone. -/
theorem clipWord_ofInt_small (n : ℤ) (h0 : 0 ≤ n) (h1 : n ≤ 8191) : clipWord (BitVec.ofInt 32 n) = BitVec.ofInt 32 n := by
  have ht := toInt_ofInt_small n h0 h1
  have hz : (0#32 : BitVec 32).toInt = 0 := by decide
  have hm : (8191#32 : BitVec 32).toInt = 8191 := by decide
  unfold clipWord IntOp.maxsi IntOp.minsi
  by_cases hs : (BitVec.ofInt 32 n).slt 0#32 = true
  · rw [BitVec.slt_iff_toInt_lt, ht, hz] at hs
    omega
  · rw [if_neg hs]
    by_cases hs2 : (8191#32 : BitVec 32).slt (BitVec.ofInt 32 n) = true
    · rw [if_pos hs2]
      rw [BitVec.slt_iff_toInt_lt, ht, hm] at hs2
      have : n = 8191 := by omega
      subst this
      rfl
    · rw [if_neg hs2]

/-! ## The two index words of a real position in [0, 8191] -/

theorem floor_range {x : ℝ} (h0 : 0 ≤ x) (h1 : x ≤ 8191) : 0 ≤ ⌊x⌋ ∧ ⌊x⌋ ≤ 8191 := by
  refine ⟨Int.floor_nonneg.mpr h0, ?_⟩
  have : ⌊x⌋ < 8192 := Int.floor_lt.mpr (by push_cast; linarith)
  omega

theorem ceil_range {x : ℝ} (h0 : 0 ≤ x) (h1 : x ≤ 8191) : 0 ≤ ⌈x⌉ ∧ ⌈x⌉ ≤ 8191 :=
  ⟨Int.ceil_nonneg h0, Int.ceil_le.mpr (by push_cast; linarith)⟩

theorem loWord_coe {x : ℝ} (h0 : 0 ≤ x) (h1 : x ≤ 8191) : loWord (x : EReal) = BitVec.ofInt 32 ⌊x⌋ := by
  obtain ⟨hf0, hf1⟩ := floor_range h0 h1
  unfold loWord
  rw [Ideal.liftRound_coe, fptosi_intCast _ hf0 hf1, clipWord_ofInt_small _ hf0 hf1]

theorem hiWord_coe {x : ℝ} (h0 : 0 ≤ x) (h1 : x ≤ 8191) : hiWord (x : EReal) = BitVec.ofInt 32 ⌈x⌉ := by
  obtain ⟨hc0, hc1⟩ := ceil_range h0 h1
  unfold hiWord
  rw [Ideal.liftRound_coe, fptosi_intCast _ hc0 hc1, clipWord_ofInt_small _ hc0 hc1]

/-- The lower word reads back as the floor. -/
theorem loWord_toInt {x : ℝ} (h0 : 0 ≤ x) (h1 : x ≤ 8191) : (loWord (x : EReal)).toInt = ⌊x⌋ := by
  obtain ⟨hf0, hf1⟩ := floor_range h0 h1
  rw [loWord_coe h0 h1, toInt_ofInt_small _ hf0 hf1]

/-- The lower word selects the site ⌊x⌋. -/
theorem site_loWord {x : ℝ} (h0 : 0 ≤ x) (h1 : x ≤ 8191) : (site (loWord (x : EReal))).val = ⌊x⌋.toNat := by
  obtain ⟨hf0, hf1⟩ := floor_range h0 h1
  show min (loWord (x : EReal)).toInt.toNat 8191 = ⌊x⌋.toNat
  rw [loWord_toInt h0 h1]
  omega

/-- The upper word selects the site ⌈x⌉. -/
theorem site_hiWord {x : ℝ} (h0 : 0 ≤ x) (h1 : x ≤ 8191) : (site (hiWord (x : EReal))).val = ⌈x⌉.toNat := by
  obtain ⟨hc0, hc1⟩ := ceil_range h0 h1
  show min (hiWord (x : EReal)).toInt.toNat 8191 = ⌈x⌉.toNat
  rw [hiWord_coe h0 h1, toInt_ofInt_small _ hc0 hc1]
  omega

/-! ## The position is a real in [0, 8191] -/

theorem pos_real (pt off : SPt.Idx → EReal) (hpt : ∀ i, ∃ r : ℝ, pt i = (r : EReal))
    (hoff : ∀ i, ∃ r : ℝ, off i = (r : EReal)) (b : Fin 32) (p : Fin 2048) :
    ∃ x : ℝ, pos pt off b p = (x : EReal) ∧ 0 ≤ x ∧ x ≤ 8191 := by
  obtain ⟨r, hr⟩ := hpt (ix3 b p 0)
  obtain ⟨s, hs⟩ := hoff (ix3 b p 0)
  refine ⟨min 8191 (max 0 (r + 1 * s)), ?_, le_min (by norm_num) (le_max_left _ _), min_le_left _ _⟩
  rw [pos, hr, hs, coe_min', coe_max', EReal.coe_add, EReal.coe_mul, EReal.coe_one, EReal.coe_zero]

/-! ## The dense form as one real sum -/

/-- The hat weight of a real position is the coercion of the real hat weight. -/
theorem hat_coe (x : ℝ) (l : ℕ) : hat (x : EReal) l = ((HatWeights.hatR x l : ℝ) : EReal) := by
  unfold hat HatWeights.hatR
  simp only [coe_max', EReal.coe_sub, EReal.coe_neg, EReal.coe_zero, EReal.coe_one]

/-- The coercion of a finite real sum is the sum of the coercions (addition of reals is the extended reals'). -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One tile's sum over a real signal at a real position is the coercion of the real sum. -/
theorem tileSum_coe (rinp : SIn.Idx → ℝ) (x : ℝ) (b : Fin 32) (c : Fin 256) (lt : Fin 4) :
    tileSum (fun j => (rinp j : EReal)) (x : EReal) b c lt
      = ((∑ k : Fin 2048, HatWeights.hatR x (tileSite lt k).val * rinp (ix3 b c (tileSite lt k)) : ℝ) : EReal) := by
  unfold tileSum
  rw [coe_finset_sum]
  refine Finset.sum_congr rfl (fun k _ => ?_)
  rw [hat_coe, EReal.coe_mul]

/-- Four consecutive tiles of 2048 sites, added in order, are the sites 0, …, 8191. -/
theorem sum_tiles (f : ℕ → ℝ) :
    (∑ k : Fin 2048, f (tileSite 0 k).val) + (∑ k : Fin 2048, f (tileSite 1 k).val)
        + (∑ k : Fin 2048, f (tileSite 2 k).val) + (∑ k : Fin 2048, f (tileSite 3 k).val)
      = ∑ l ∈ Finset.range 8192, f l := by
  have e : ∀ (lt : Fin 4) (o : ℕ), 2048 * lt.val = o →
      (∑ k : Fin 2048, f (tileSite lt k).val) = ∑ k ∈ Finset.range 2048, f (o + k) := by
    intro lt o ho
    subst ho
    exact Fin.sum_univ_eq_sum_range (fun k => f (2048 * lt.val + k)) 2048
  rw [e 0 0 rfl, e 1 2048 rfl, e 2 (2048 + 2048) rfl, e 3 (2048 + 2048 + 2048) rfl]
  show _ = ∑ l ∈ Finset.range (2048 + 2048 + 2048 + 2048), f l
  rw [Finset.sum_range_add, Finset.sum_range_add, Finset.sum_range_add]
  simp only [Nat.zero_add]

/-- The four tiles' sums over a real signal, for a sequence `a` that lists the signal's row. -/
theorem dense_eq (rinp : SIn.Idx → ℝ) (x : ℝ) (b : Fin 32) (c : Fin 256) (a : ℕ → ℝ)
    (ha : ∀ s : Fin 8192, a s.val = rinp (ix3 b c s)) :
    tileSum (fun j => (rinp j : EReal)) (x : EReal) b c 0 + tileSum (fun j => (rinp j : EReal)) (x : EReal) b c 1
        + tileSum (fun j => (rinp j : EReal)) (x : EReal) b c 2 + tileSum (fun j => (rinp j : EReal)) (x : EReal) b c 3
      = ((∑ l ∈ Finset.range 8192, HatWeights.hatR x l * a l : ℝ) : EReal) := by
  rw [tileSum_coe, tileSum_coe, tileSum_coe, tileSum_coe, ← EReal.coe_add, ← EReal.coe_add, ← EReal.coe_add,
    ← sum_tiles (fun l => HatWeights.hatR x l * a l)]
  simp only [ha]

/-! ## The two-tap form as a real expression -/

theorem taps_eq (rinp : SIn.Idx → ℝ) {x : ℝ} (h0 : 0 ≤ x) (h1 : x ≤ 8191) (b : Fin 32) (c : Fin 256) (a : ℕ → ℝ)
    (ha : ∀ s : Fin 8192, a s.val = rinp (ix3 b c s)) :
    (1 - ((x : EReal) - (((loWord (x : EReal)).toInt : ℝ) : EReal))) * (rinp (ix3 b c (site (loWord (x : EReal)))) : EReal)
        + ((x : EReal) - (((loWord (x : EReal)).toInt : ℝ) : EReal)) * (rinp (ix3 b c (site (hiWord (x : EReal)))) : EReal)
      = (((1 - (x - ((⌊x⌋ : ℤ) : ℝ))) * a ⌊x⌋.toNat + (x - ((⌊x⌋ : ℤ) : ℝ)) * a ⌈x⌉.toNat : ℝ) : EReal) := by
  rw [← ha (site (loWord (x : EReal))), ← ha (site (hiWord (x : EReal))), site_loWord h0 h1, site_hiWord h0 h1,
    loWord_toInt h0 h1]
  simp only [EReal.coe_add, EReal.coe_mul, EReal.coe_sub, EReal.coe_one]

/-! ## The two forms agree -/

theorem hatOut_eq_tapsOut (inp : SIn.Idx → EReal) (pt off : SPt.Idx → EReal)
    (hinp : ∀ i, ∃ r : ℝ, inp i = (r : EReal)) (hpt : ∀ i, ∃ r : ℝ, pt i = (r : EReal))
    (hoff : ∀ i, ∃ r : ℝ, off i = (r : EReal)) :
    Interp.hatOut inp pt off = Interp.tapsOut inp pt off := by
  choose rinp hrinp using hinp
  obtain rfl : inp = fun j => (rinp j : EReal) := funext hrinp
  funext i
  obtain ⟨x, hx, hx0, hx1⟩ := pos_real pt off hpt hoff (i 0) (i 1)
  -- the signal's row (batch i 0, channel i 2) as a sequence
  let a : ℕ → ℝ := fun l => if h : l < 8192 then rinp (ix3 (i 0) (i 2) ⟨l, h⟩) else 0
  have ha : ∀ s : Fin 8192, a s.val = rinp (ix3 (i 0) (i 2) s) := fun s => dif_pos s.isLt
  simp only [hatOut, tapsOut]
  rw [hx, dense_eq rinp x (i 0) (i 2) a ha, taps_eq rinp hx0 hx1 (i 0) (i 2) a ha,
    HatWeights.sum_hatR 8192 hx0 (by norm_num; linarith) a]

end Interp
-- ==== Proof.FiniteInputs.lean ====
/-
  From the all-finite precondition to real entries.

  The precondition computes, for each of the three arrays, the conjunction over all entries of |v| < +∞ (the absolute
  value as max v (-v), the comparison against the pattern of +∞), and the conjunction of the three.  If the result
  is 1, each of the three conjunctions is 1, so each entry v has max v (-v) < ⊤ in the extended reals; that excludes
  v = ⊤ (max ⊤ ⊥ = ⊤) and v = ⊥ (max ⊥ ⊤ = ⊤), so v is a real number.
-/
import proofs.«147679_j50354196579100_2_alg».proof.Pre_finite_inputs
import Idealize.ShloMosaic.Lib.ReduceAll
import Idealize.ShloMosaic.Lib.ValueIdx
import Idealize.ShloMosaic.PureOps.Ideal

namespace Interp

open Idealize.ShloMosaic

/-- The pattern 0x7F800000 is +∞. -/
theorem ofBits_inf : Ideal.ofBits .f32 0x7F800000#32 = ⊤ := by simp [Ideal.ofBits, Ideal.ieee]

/-- An extended real whose absolute value max v (-v) compares below +∞ is a real. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => exact absurd h (by simp [Ideal.cmp])
  | coe r => exact ⟨r, rfl⟩
  | top => exact absurd h (by simp [Ideal.cmp])

/-- The result shape of a reduction over all axes has one index. -/
instance : Subsingleton Cert.Pre_finite_inputs.S_.Idx := ⟨fun a b => funext fun d => d.elim0⟩

theorem finite_of_pre [Cert.Pre_finite_inputs.Facts] (x0 : FVec Ideal Cert.Pre_finite_inputs.S32x256x8192 .f32)
    (x1 x2 : FVec Ideal Cert.Pre_finite_inputs.S32x2048x1 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  -- the outer conjunction, then the inner one
  obtain ⟨h01, hc⟩ := IntOp.andi_eq_one.1 h0
  obtain ⟨ha, hb⟩ := IntOp.andi_eq_one.1 h01
  refine ⟨fun i => ?_, fun i => ?_, fun i => ?_⟩
  · exact real_of_abs_lt_inf (x0 i) (Host.reduce_andi_all _ _ _ _ _ ha i)
  · exact real_of_abs_lt_inf (x1 i) (Host.reduce_andi_all _ _ _ _ _ hb i)
  · exact real_of_abs_lt_inf (x2 i) (Host.reduce_andi_all _ _ _ _ _ hc i)

end Interp
-- ==== Proof.lean ====
/-
  Linear interpolation of a sampled signal: the dense hat-weight form equals the two-tap form.

  For each batch b and sample p the position x = min 8191 (max 0 (point + 1·offset)) is computed on the host by both
  programs. The kernel accumulates, over four tiles of 2048 sites, the products of the hat weights max 0 (1 − |x − l|)
  with the signal (a matrix product per tile, added into an accumulator that is zeroed at a batch's first tile and
  copied out after its last); over the extended reals its result array is `Interp.hatOut` of the three arguments
  (Proof/KernelValue.lean, over the generated frame run). The reference gathers the signal at ⌊x⌋ and ⌈x⌉, clipped as
  integers, and combines the two taps with weights 1 − (x − ⌊x⌋) and x − ⌊x⌋; read index by index its result is
  `Interp.tapsOut` (Proof/RefTaps.lean), and its run ends at that term (Proof/RefRun.lean). On finite arguments — the
  certificate's precondition (Proof/FiniteInputs.lean) — the hat weights vanish off the two taps and the two forms are
  one function (Proof/Bridge.lean over the real identity of Proof/HatWeights.lean). The ideal pass rewrote nothing, so
  the kernel's idealization is the program's own text read over the extended reals.
-/
import proofs.«147679_j50354196579100_2_alg».proof.Defs
import proofs.«147679_j50354196579100_2_alg».proof.Proof.Gen.Kernel
import proofs.«147679_j50354196579100_2_alg».proof.Proof.Gen.Kernel.Skeleton
import proofs.«147679_j50354196579100_2_alg».proof.Proof.Gen.Kernel.Loops
import proofs.«147679_j50354196579100_2_alg».proof.Proof.Gen.Kernel.Launch
import proofs.«147679_j50354196579100_2_alg».proof.Proof.Gen.Kernel.Points
import proofs.«147679_j50354196579100_2_alg».proof.Proof.Gen.Kernel.Frame
import proofs.«147679_j50354196579100_2_alg».proof.Proof.Gen.KernelIdeal
import proofs.«147679_j50354196579100_2_alg».proof.Proof.Gen.KernelIdeal.Skeleton
import proofs.«147679_j50354196579100_2_alg».proof.Proof.Gen.KernelIdeal.Loops
import proofs.«147679_j50354196579100_2_alg».proof.Proof.Gen.KernelIdeal.Launch
import proofs.«147679_j50354196579100_2_alg».proof.Proof.Gen.KernelIdeal.Points
import proofs.«147679_j50354196579100_2_alg».proof.Proof.Gen.KernelIdeal.Frame
import proofs.«147679_j50354196579100_2_alg».proof.Proof.Gen.ReferenceIdeal
import proofs.«147679_j50354196579100_2_alg».proof.Proof.Gen.Pre_finite_inputs
import proofs.«147679_j50354196579100_2_alg».proof.Proof.KernelValue
import proofs.«147679_j50354196579100_2_alg».proof.Proof.RefRun
import proofs.«147679_j50354196579100_2_alg».proof.Proof.RefTaps
import proofs.«147679_j50354196579100_2_alg».proof.Proof.Bridge
import proofs.«147679_j50354196579100_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on finite arguments both programs end at one array: the kernel at the dense form, the reference
    at the two-tap form, and on finite arguments the two are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2, Interp.Ref.ref_eq_taps]
  obtain ⟨h0, h1, h2⟩ := Interp.finite_of_pre _ _ _ (hpre c)
  exact (Interp.hatOut_eq_tapsOut _ _ _ h0 h1 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
